-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : IVec S2x262144 32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S1x262144 : Shape := ⟨2, ![1, 262144]⟩
abbrev S262144 : Shape := ⟨1, ![262144]⟩
abbrev S_ : Shape := ⟨0, ![]⟩
abbrev S8192 : Shape := ⟨1, ![8192]⟩
abbrev S262144x1 : Shape := ⟨2, ![262144, 1]⟩
abbrev S8192x8192 : Shape := ⟨2, ![8192, 8192]⟩
abbrev S262144x2 : Shape := ⟨2, ![262144, 2]⟩
abbrev S1x128 : Shape := ⟨2, ![1, 128]⟩
abbrev S512x8192 : Shape := ⟨2, ![512, 8192]⟩
abbrev S512x128 : Shape := ⟨2, ![512, 128]⟩

abbrev nBuf : Space → Nat
  | .hbm => 75
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .f32⟩
  | .hbm, ⟨9, _⟩ => ⟨S8192, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S_, .f32⟩
  | .hbm, ⟨19, _⟩ => ⟨S262144, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .i1⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144, .f32⟩
  | .hbm, ⟨40, _⟩ => ⟨S_, .i32⟩
  | .hbm, ⟨41, _⟩ => ⟨S262144, .i32⟩
  | .hbm, ⟨42, _⟩ => ⟨S262144, .i1⟩
  | .hbm, ⟨43, _⟩ => ⟨S_, .i32⟩
  | .hbm, ⟨44, _⟩ => ⟨S262144, .i32⟩
  | .hbm, ⟨45, _⟩ => ⟨S262144, .i32⟩
  | .hbm, ⟨46, _⟩ => ⟨S262144, .i32⟩
  | .hbm, ⟨47, _⟩ => ⟨S262144x1, .i32⟩
  | .hbm, ⟨48, _⟩ => ⟨S262144, .f32⟩
  | .hbm, ⟨49, _⟩ => ⟨S262144, .f32⟩
  | .hbm, ⟨50, _⟩ => ⟨S_, .bf16⟩
  | .hbm, ⟨51, _⟩ => ⟨S8192x8192, .bf16⟩
  | .hbm, ⟨52, _⟩ => ⟨S262144, .bf16⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S_, .i32⟩
  | .hbm, ⟨61, _⟩ => ⟨S262144, .i32⟩
  | .hbm, ⟨62, _⟩ => ⟨S262144, .i1⟩
  | .hbm, ⟨63, _⟩ => ⟨S_, .i32⟩
  | .hbm, ⟨64, _⟩ => ⟨S262144, .i32⟩
  | .hbm, ⟨65, _⟩ => ⟨S262144, .i32⟩
  | .hbm, ⟨66, _⟩ => ⟨S262144, .i32⟩
  | .hbm, ⟨67, _⟩ => ⟨S262144x1, .i32⟩
  | .hbm, ⟨68, _⟩ => ⟨S262144x1, .i32⟩
  | .hbm, ⟨69, _⟩ => ⟨S262144x2, .i32⟩
  | .hbm, ⟨70, _⟩ => ⟨S8192x8192, .bf16⟩
  | .hbm, ⟨71, _⟩ => ⟨S1x128, .f32⟩
  | .hbm, ⟨72, _⟩ => ⟨S8192x128, .f32⟩
  | .hbm, ⟨73, _⟩ => ⟨S8192x128, .bf16⟩
  | .hbm, ⟨74, _⟩ => ⟨S8192x128, .f32⟩
  | .local _ .vmem, ⟨0, _⟩ => ⟨S8192x128, .f32⟩
  | .local _ .vmem, ⟨1, _⟩ => ⟨S128x128, .f32⟩
  | .local _ .vmem, ⟨2, _⟩ => ⟨S1x128, .f32⟩
  | .local _ .vmem, ⟨3, _⟩ => ⟨S8192x128, .f32⟩
  | .local _ .vmem, ⟨4, _⟩ => ⟨S512x8192, .bf16⟩
  | .local _ .vmem, ⟨5, _⟩ => ⟨S512x8192, .bf16⟩
  | .local _ .vmem, ⟨6, _⟩ => ⟨S8192x128, .bf16⟩
  | .local _ .vmem, ⟨7, _⟩ => ⟨S512x128, .f32⟩
  | .local _ .vmem, ⟨8, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_c_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_12 : Ref sig .tc := ⟨.hbm, 60, rfl⟩
abbrev main_v40 : Ref sig .tc := ⟨.hbm, 61, rfl⟩
abbrev main_v41 : Ref sig .tc := ⟨.hbm, 62, rfl⟩
abbrev main_c_13 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192 : S_.BroadcastsInDim S8192 (![] : Fin 0 → Fin S8192.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S8192x8192 : S_.BroadcastsInDim S8192x8192 (![] : Fin 0 → Fin S8192x8192.rank)
  bitsLt_bf16_f32 : FTy.bits .bf16 < FTy.bits .f32
  concatenates_S262144x1_S262144x1_S262144x2_d1 : Shape.Concatenates [S262144x1, S262144x1] S262144x2 1
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  shapeCasts_S8192x128_S8192x128 : S8192x128.ShapeCasts S8192x128
  inb_S512x128_S512x128_0_0 : ∀ a, (![0, 0] : Fin 2 → Nat) a + S512x128.size a ≤ S512x128.size a
  h_S512x128 : 0 < S512x128.numel
  scatter_S8192_S262144x1_S262144_n_0_0_1_wf : ScatterDims.WF S8192 S262144x1 S262144 [] [0] [0] 1
  gather_S8192_S262144x1_S262144_n_0_n_n_0_1_1_wf : GatherDims.WF S8192 S262144x1 S262144 [] [0] [] [0] [] 1 ![1]
  scatter_S8192x8192_S262144x2_S262144_n_01_01_1_wf : ScatterDims.WF S8192x8192 S262144x2 S262144 [] [0, 1] [0, 1] 1
  dot_S8192x128_S128x128_S8192x128_1_0_0_1_n_n_wf : DotDims.WF S8192x128 S128x128 S8192x128 [1] [0] [0] [1] [] []
  dot_S512x8192_S8192x128_S512x128_1_0_0_1_n_n_wf : DotDims.WF S512x8192 S8192x128 S512x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .f32 = 32 ∨ (Rect.block (s := S8192x128) S8192x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .bf16 = 32 ∨ (Rect.block (s := S8192x8192) S512x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x128.size a
  hwx1_2 : ∀ i : grid1.Coords, EltTy.bits .f32 = 32 ∨ (Rect.block (s := S8192x128) S512x128.size (cc1_transform_2 i) (hinb1_2 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S8192x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S1x128 : Shape := ⟨2, ![1, 128]⟩
abbrev S1x262144 : Shape := ⟨2, ![1, 262144]⟩
abbrev S262144 : Shape := ⟨1, ![262144]⟩
abbrev S_ : Shape := ⟨0, ![]⟩
abbrev S8192 : Shape := ⟨1, ![8192]⟩
abbrev S262144x1 : Shape := ⟨2, ![262144, 1]⟩
abbrev S8192x8192 : Shape := ⟨2, ![8192, 8192]⟩
abbrev S262144x2 : Shape := ⟨2, ![262144, 2]⟩

abbrev nBuf : Space → Nat
  | .hbm => 79
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S8192x128, .f32⟩
  | .hbm, ⟨6, _⟩ => ⟨S1x128, .f32⟩
  | .hbm, ⟨7, _⟩ => ⟨S8192x128, .f32⟩
  | .hbm, ⟨8, _⟩ => ⟨S8192x128, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S_, .f32⟩
  | .hbm, ⟨14, _⟩ => ⟨S8192, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S262144x1, .i32⟩
  | .hbm, ⟨23, _⟩ => ⟨S_, .f32⟩
  | .hbm, ⟨24, _⟩ => ⟨S262144, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S_, .i32⟩
  | .hbm, ⟨37, _⟩ => ⟨S262144, .i32⟩
  | .hbm, ⟨38, _⟩ => ⟨S262144, .i1⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S262144x1, .i32⟩
  | .hbm, ⟨44, _⟩ => ⟨S262144, .f32⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S_, .i32⟩
  | .hbm, ⟨49, _⟩ => ⟨S262144, .i32⟩
  | .hbm, ⟨50, _⟩ => ⟨S262144, .i32⟩
  | .hbm, ⟨51, _⟩ => ⟨S262144, .i32⟩
  | .hbm, ⟨52, _⟩ => ⟨S262144x1, .i32⟩
  | .hbm, ⟨53, _⟩ => ⟨S262144, .f32⟩
  | .hbm, ⟨54, _⟩ => ⟨S262144, .f32⟩
  | .hbm, ⟨55, _⟩ => ⟨S_, .f32⟩
  | .hbm, ⟨56, _⟩ => ⟨S8192x8192, .f32⟩
  | .hbm, ⟨57, _⟩ => ⟨S_, .i32⟩
  | .hbm, ⟨58, _⟩ => ⟨S262144, .i32⟩
  | .hbm, ⟨59, _⟩ => ⟨S262144, .i1⟩
  | .hbm, ⟨60, _⟩ => ⟨S_, .i32⟩
  | .hbm, ⟨61, _⟩ => ⟨S262144, .i32⟩
  | .hbm, ⟨62, _⟩ => ⟨S262144, .i32⟩
  | .hbm, ⟨63, _⟩ => ⟨S262144, .i32⟩
  | .hbm, ⟨64, _⟩ => ⟨S_, .i32⟩
  | .hbm, ⟨65, _⟩ => ⟨S262144, .i32⟩
  | .hbm, ⟨66, _⟩ => ⟨S262144, .i1⟩
  | .hbm, ⟨67, _⟩ => ⟨S_, .i32⟩
  | .hbm, ⟨68, _⟩ => ⟨S262144, .i32⟩
  | .hbm, ⟨69, _⟩ => ⟨S262144, .i32⟩
  | .hbm, ⟨70, _⟩ => ⟨S262144, .i32⟩
  | .hbm, ⟨71, _⟩ => ⟨S262144x1, .i32⟩
  | .hbm, ⟨72, _⟩ => ⟨S262144x1, .i32⟩
  | .hbm, ⟨73, _⟩ => ⟨S262144x2, .i32⟩
  | .hbm, ⟨74, _⟩ => ⟨S8192x8192, .f32⟩
  | .hbm, ⟨75, _⟩ => ⟨S8192x128, .f32⟩
  | .hbm, ⟨76, _⟩ => ⟨S_, .f32⟩
  | .hbm, ⟨77, _⟩ => ⟨S8192x128, .f32⟩
  | .hbm, ⟨78, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_c_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_12 : Ref sig .tc := ⟨.hbm, 64, rfl⟩
abbrev main_v44 : Ref sig .tc := ⟨.hbm, 65, rfl⟩
abbrev main_v45 : Ref sig .tc := ⟨.hbm, 66, rfl⟩
abbrev main_c_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192 : S_.BroadcastsInDim S8192 (![] : Fin 0 → Fin S8192.rank)
  bcast_S_S262144 : S_.BroadcastsInDim S262144 (![] : Fin 0 → Fin S262144.rank)
  bcast_S262144_S262144x1_0 : S262144.BroadcastsInDim S262144x1 (![0] : Fin 1 → Fin S262144x1.rank)
  bcast_S_S8192x8192 : S_.BroadcastsInDim S8192x8192 (![] : Fin 0 → Fin S8192x8192.rank)
  concatenates_S262144x1_S262144x1_S262144x2_d1 : Shape.Concatenates [S262144x1, S262144x1] S262144x2 1
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  scatter_S8192_S262144x1_S262144_n_0_0_1_wf : ScatterDims.WF S8192 S262144x1 S262144 [] [0] [0] 1
  gather_S8192_S262144x1_S262144_n_0_n_n_0_1_1_wf : GatherDims.WF S8192 S262144x1 S262144 [] [0] [] [0] [] 1 ![1]
  scatter_S8192x8192_S262144x2_S262144_n_01_01_1_wf : ScatterDims.WF S8192x8192 S262144x2 S262144 [] [0, 1] [0, 1] 1
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KernelRun.lean ====
/-
  THE KERNEL'S RUN, WITH ITS RESULT NAMED.

  The program is two kernel regions among stretches of host operations.  Its run is followed by the contents of the
  TensorCore's buffers at each boundary between two segments: the launch memory, then after each stretch of host
  operations the operations' results, and after each region its output array at what the write-backs of all its grid
  points leave.  The last of these boundary contents is what every weakly fair execution ends at, buffer by buffer —
  the argument arrays, which nothing writes, and also the result array, which is the second region's output.
  This module states that run with the result array named by the last boundary contents; what those contents are as a
  function of the arguments is computed elsewhere.
-/
import proofs.«171493_j32298154066114_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the four argument arrays as launched. -/
theorem run : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.ValueRun

end
-- ==== Proof.RefStages.lean ====
/-
  THE REFERENCE'S STAGES, as functions of its arguments.

  From the node features x, the edge list e (row 0 the source of each edge, row 1 its target), the weight matrix W and
  the bias b the reference computes

    raw a                 row a of e as a vector;
    wrap r                an id below zero moved up by the number of nodes;
    degreeOf r0           the number of edges leaving each node: ones added into zeros at the wrapped sources;
    dinvOf r0             degree to the power -1/2 where the degree is positive, zero elsewhere;
    normOf d r0 r1        per edge, d at its wrapped source times d at its wrapped target;
    pairsOf r0 r1         per edge, the pair (wrapped source, wrapped target);
    adjacencyOf d r0 r1   the dense matrix of zeros with the norms written at the pairs;
    linear x W b          x · Wᵀ with b added to every row;
    rectified a h         max (a · h, 0);
    result x e W b        rectified (adjacency of e) (linear x W b).
-/
import proofs.«171493_j32298154066114_1_alg».proof.Proof.Gen.ReferenceIdeal

noncomputable section

namespace Cert.ReferenceIdeal.Stages

open Cert.ReferenceIdeal Cert.ReferenceIdeal.Gen Idealize.ShloMosaic

variable {F : FTy → Type} [FloatOps F]

/-- Row 0 of the edge list: the sources. -/
def raw0 (e : IVec S2x262144 32) : IVec S262144 32 :=
  shapeCast _ (extractStridedSlice S1x262144 ![0, 0] e slices_S2x262144_S1x262144_0_0) shapeCasts_S1x262144_S262144

/-- Row 1 of the edge list: the targets. -/
def raw1 (e : IVec S2x262144 32) : IVec S262144 32 :=
  shapeCast _ (extractStridedSlice S1x262144 ![1, 0] e slices_S2x262144_S1x262144_1_0) shapeCasts_S1x262144_S262144

/-- An id below zero moved up by the number of nodes. -/
def wrap (r : IVec S262144 32) : IVec S262144 32 :=
  select (cmpi .slt r (broadcastInDim S262144 ![] bcast_S_S262144 (constantI S_ 32 0#32)))
    (addi r (broadcastInDim S262144 ![] bcast_S_S262144 (constantI S_ 32 8192#32))) r

/-- The number of edges leaving each node. -/
def degreeOf (r0 : IVec S262144 32) : FVec F S8192 .f32 :=
  Host.scatterAdd scatter_S8192_S262144x1_S262144_n_0_0_1 (broadcastInDim S8192 ![] bcast_S_S8192 (constant S_ .f32 0x00000000#32))
    (broadcastInDim S262144x1 ![0] bcast_S262144_S262144x1_0 (wrap r0)) (broadcastInDim S262144 ![] bcast_S_S262144 (constant S_ .f32 0x3F800000#32))

/-- Where the degree is positive. -/
def positive (r0 : IVec S262144 32) : IVec S8192 1 :=
  cmpf .ogt (degreeOf (F := F) r0) (broadcastInDim S8192 ![] bcast_S_S8192 (constant S_ .f32 0x00000000#32))

/-- degree to the power -1/2. -/
def power (r0 : IVec S262144 32) : FVec F S8192 .f32 :=
  Host.powf (degreeOf r0) (broadcastInDim S8192 ![] bcast_S_S8192 (constant S_ .f32 0xBF000000#32))

/-- degree to the power -1/2 where the degree is positive, zero elsewhere. -/
def dinvOf (r0 : IVec S262144 32) : FVec F S8192 .f32 :=
  select (positive (F := F) r0) (power r0) (broadcastInDim S8192 ![] bcast_S_S8192 (id (constant S_ .f32 0x00000000#32)))

/-- Per edge: d at its wrapped source times d at its wrapped target. -/
def normOf (d : FVec F S8192 .f32) (r0 r1 : IVec S262144 32) : FVec F S262144 .f32 :=
  mulf (Host.gather gather_S8192_S262144x1_S262144_n_0_n_n_0_1_1 d (broadcastInDim S262144x1 ![0] bcast_S262144_S262144x1_0 (wrap r0)))
    (Host.gather gather_S8192_S262144x1_S262144_n_0_n_n_0_1_1 d (broadcastInDim S262144x1 ![0] bcast_S262144_S262144x1_0 (wrap r1)))

/-- Per edge: the pair (wrapped source, wrapped target). -/
def pairsOf (r0 r1 : IVec S262144 32) : IVec S262144x2 32 :=
  concatenate S262144x2 1 [⟨S262144x1, broadcastInDim S262144x1 ![0] bcast_S262144_S262144x1_0 (wrap r0)⟩,
    ⟨S262144x1, broadcastInDim S262144x1 ![0] bcast_S262144_S262144x1_0 (wrap r1)⟩] concatenates_S262144x1_S262144x1_S262144x2_d1

/-- The dense adjacency: zeros, with each edge's norm written at its pair. -/
def adjacencyOf (d : FVec F S8192 .f32) (r0 r1 : IVec S262144 32) : FVec F S8192x8192 .f32 :=
  Host.scatter scatter_S8192x8192_S262144x2_S262144_n_01_01_1 (fun _ b => b)
    (broadcastInDim S8192x8192 ![] bcast_S_S8192x8192 (constant S_ .f32 0x00000000#32)) (pairsOf r0 r1) (normOf d r0 r1)

/-- The linear layer: x · Wᵀ with the bias added to every row. -/
def linear (x : FVec F S8192x128 .f32) (W : FVec F S128x128 .f32) (b : FVec F S128 .f32) : FVec F S8192x128 .f32 :=
  addf (Host.dotGeneral dot_S8192x128_S128x128_S8192x128_1_0_0_1_n_n none x (transpose S128x128 [1, 0] W transposes_S128x128_S128x128_1_0))
    (broadcastInDim S8192x128 ![0, 1] bcast_S1x128_S8192x128_0_1 (broadcastInDim S1x128 ![1] bcast_S128_S1x128_1 b))

/-- The rectified aggregate: max (a · h, 0). -/
def rectified (a : FVec F S8192x8192 .f32) (h : FVec F S8192x128 .f32) : FVec F S8192x128 .f32 :=
  maximumf (Host.dotGeneral dot_S8192x8192_S8192x128_S8192x128_1_0_0_1_n_n none a h)
    (broadcastInDim S8192x128 ![] bcast_S_S8192x128 (constant S_ .f32 0x00000000#32))

/-- The reference's result. -/
def result (x : FVec F S8192x128 .f32) (e : IVec S2x262144 32) (W : FVec F S128x128 .f32) (b : FVec F S128 .f32) :
    FVec F S8192x128 .f32 :=
  rectified (adjacencyOf (dinvOf (raw0 e)) (raw0 e) (raw1 e)) (linear x W b)

end Cert.ReferenceIdeal.Stages

end
-- ==== Proof.RefRun.lean ====
/-
  THE REFERENCE'S RUN.

  The reference is a straight line of 75 host operations, so every weakly fair execution of it terminates with each
  buffer at the operations' results folded over the launch contents.  The line is read in four stretches — the linear
  layer together with the degrees and their power -1/2; the three operations of the outlined selection; the gathers,
  the product and the scatter that build the adjacency; the big product with the outlined rectifier — each against
  ANY contents X of the buffers before it.  Chained, they put the result buffer at `Stages.result` of the arguments'
  launch contents.
-/
import proofs.«171493_j32298154066114_1_alg».proof.Proof.RefStages
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Cert.ReferenceIdeal.Stages
open Idealize.ShloMosaic Idealize.ShloMosaic.TcCoe Idealize.SL.Sem Idealize.ShloMosaic.StableHlo

variable {F : FTy → Type} [FloatOps F]

/-! ## The program as its list of operations -/

/-- The program's 75 operations, in order; an outlined function's operations stand at its call. -/
abbrev ops : List (HloOp τ sig (Elt F)) :=
  [ unary main_arg2 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S8192x128 ![0, 1] bcast_S1x128_S8192x128_0_1 : (⟨S1x128, .f32⟩ : BufTy).Contents (Elt F) → (⟨S8192x128, .f32⟩ : BufTy).Contents (Elt F)),
    binary main_v1 main_v3 main_v4 (addf : (⟨S8192x128, .f32⟩ : BufTy).Contents (Elt F) → (⟨S8192x128, .f32⟩ : BufTy).Contents (Elt F) → (⟨S8192x128, .f32⟩ : BufTy).Contents (Elt F)),
    unary main_arg1 main_v5 ((extractStridedSlice S1x262144 ![0, 0] · slices_S2x262144_S1x262144_0_0) : (⟨S2x262144, .i32⟩ : BufTy).Contents (Elt F) → (⟨S1x262144, .i32⟩ : BufTy).Contents (Elt F)),
    reshape main_v5 main_v6 rfl shapeCasts_S1x262144_S262144,
    unary main_arg1 main_v7 ((extractStridedSlice S1x262144 ![1, 0] · slices_S2x262144_S1x262144_1_0) : (⟨S2x262144, .i32⟩ : BufTy).Contents (Elt F) → (⟨S1x262144, .i32⟩ : BufTy).Contents (Elt F)),
    reshape main_v7 main_v8 rfl shapeCasts_S1x262144_S262144,
    nullary main_cst (constant S_ .f32 0x00000000#32),
    unary main_cst main_v9 (broadcastInDim S8192 ![] bcast_S_S8192 : (⟨S_, .f32⟩ : BufTy).Contents (Elt F) → (⟨S8192, .f32⟩ : BufTy).Contents (Elt F)),
    nullary main_c (constantI S_ 32 0#32),
    unary main_c main_v10 (broadcastInDim S262144 ![] bcast_S_S262144 : (⟨S_, .i32⟩ : BufTy).Contents (Elt F) → (⟨S262144, .i32⟩ : BufTy).Contents (Elt F)),
    binary main_v6 main_v10 main_v11 (cmpi .slt : (⟨S262144, .i32⟩ : BufTy).Contents (Elt F) → (⟨S262144, .i32⟩ : BufTy).Contents (Elt F) → (⟨S262144, .i1⟩ : BufTy).Contents (Elt F)),
    nullary main_c_0 (constantI S_ 32 8192#32),
    unary main_c_0 main_v12 (broadcastInDim S262144 ![] bcast_S_S262144 : (⟨S_, .i32⟩ : BufTy).Contents (Elt F) → (⟨S262144, .i32⟩ : BufTy).Contents (Elt F)),
    binary main_v6 main_v12 main_v13 (addi : (⟨S262144, .i32⟩ : BufTy).Contents (Elt F) → (⟨S262144, .i32⟩ : BufTy).Contents (Elt F) → (⟨S262144, .i32⟩ : BufTy).Contents (Elt F)),
    ternary main_v11 main_v13 main_v6 main_v14 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v14 main_v15 (broadcastInDim S262144x1 ![0] bcast_S262144_S262144x1_0 : (⟨S262144, .i32⟩ : BufTy).Contents (Elt F) → (⟨S262144x1, .i32⟩ : BufTy).Contents (Elt F)),
    nullary main_cst_1 (constant S_ .f32 0x3F800000#32),
    unary main_cst_1 main_v16 (broadcastInDim S262144 ![] bcast_S_S262144 : (⟨S_, .f32⟩ : BufTy).Contents (Elt F) → (⟨S262144, .f32⟩ : BufTy).Contents (Elt F)),
    ternary main_v9 main_v15 main_v16 main_v17 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    nullary main_cst_2 (constant S_ .f32 0x00000000#32),
    unary main_cst_2 main_v18 (broadcastInDim S8192 ![] bcast_S_S8192 : (⟨S_, .f32⟩ : BufTy).Contents (Elt F) → (⟨S8192, .f32⟩ : BufTy).Contents (Elt F)),
    binary main_v17 main_v18 main_v19 (cmpf .ogt : (⟨S8192, .f32⟩ : BufTy).Contents (Elt F) → (⟨S8192, .f32⟩ : BufTy).Contents (Elt F) → (⟨S8192, .i1⟩ : BufTy).Contents (Elt F)),
    nullary main_cst_3 (constant S_ .f32 0xBF000000#32),
    unary main_cst_3 main_v20 (broadcastInDim S8192 ![] bcast_S_S8192 : (⟨S_, .f32⟩ : BufTy).Contents (Elt F) → (⟨S8192, .f32⟩ : BufTy).Contents (Elt F)),
    binary main_v17 main_v20 main_v21 (Host.powf : (⟨S8192, .f32⟩ : BufTy).Contents (Elt F) → (⟨S8192, .f32⟩ : BufTy).Contents (Elt F) → (⟨S8192, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v19) (TRef.of (T := ⟨S8192, .f32⟩) main_v21) (TRef.of (T := ⟨S8192, .f32⟩) main_call0_v1) (TRef.of (T := ⟨S8192, .f32⟩) main_v22) select,
    nullary main_c_5 (constantI S_ 32 0#32),
    unary main_c_5 main_v23 (broadcastInDim S262144 ![] bcast_S_S262144 : (⟨S_, .i32⟩ : BufTy).Contents (Elt F) → (⟨S262144, .i32⟩ : BufTy).Contents (Elt F)),
    binary main_v6 main_v23 main_v24 (cmpi .slt : (⟨S262144, .i32⟩ : BufTy).Contents (Elt F) → (⟨S262144, .i32⟩ : BufTy).Contents (Elt F) → (⟨S262144, .i1⟩ : BufTy).Contents (Elt F)),
    nullary main_c_6 (constantI S_ 32 8192#32),
    unary main_c_6 main_v25 (broadcastInDim S262144 ![] bcast_S_S262144 : (⟨S_, .i32⟩ : BufTy).Contents (Elt F) → (⟨S262144, .i32⟩ : BufTy).Contents (Elt F)),
    binary main_v6 main_v25 main_v26 (addi : (⟨S262144, .i32⟩ : BufTy).Contents (Elt F) → (⟨S262144, .i32⟩ : BufTy).Contents (Elt F) → (⟨S262144, .i32⟩ : BufTy).Contents (Elt F)),
    ternary main_v24 main_v26 main_v6 main_v27 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v27 main_v28 (broadcastInDim S262144x1 ![0] bcast_S262144_S262144x1_0 : (⟨S262144, .i32⟩ : BufTy).Contents (Elt F) → (⟨S262144x1, .i32⟩ : BufTy).Contents (Elt F)),
    binary main_v22 main_v28 main_v29 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    nullary main_c_7 (constantI S_ 32 0#32),
    unary main_c_7 main_v30 (broadcastInDim S262144 ![] bcast_S_S262144 : (⟨S_, .i32⟩ : BufTy).Contents (Elt F) → (⟨S262144, .i32⟩ : BufTy).Contents (Elt F)),
    binary main_v8 main_v30 main_v31 (cmpi .slt : (⟨S262144, .i32⟩ : BufTy).Contents (Elt F) → (⟨S262144, .i32⟩ : BufTy).Contents (Elt F) → (⟨S262144, .i1⟩ : BufTy).Contents (Elt F)),
    nullary main_c_8 (constantI S_ 32 8192#32),
    unary main_c_8 main_v32 (broadcastInDim S262144 ![] bcast_S_S262144 : (⟨S_, .i32⟩ : BufTy).Contents (Elt F) → (⟨S262144, .i32⟩ : BufTy).Contents (Elt F)),
    binary main_v8 main_v32 main_v33 (addi : (⟨S262144, .i32⟩ : BufTy).Contents (Elt F) → (⟨S262144, .i32⟩ : BufTy).Contents (Elt F) → (⟨S262144, .i32⟩ : BufTy).Contents (Elt F)),
    ternary main_v31 main_v33 main_v8 main_v34 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v34 main_v35 (broadcastInDim S262144x1 ![0] bcast_S262144_S262144x1_0 : (⟨S262144, .i32⟩ : BufTy).Contents (Elt F) → (⟨S262144x1, .i32⟩ : BufTy).Contents (Elt F)),
    binary main_v22 main_v35 main_v36 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    binary main_v29 main_v36 main_v37 (mulf : (⟨S262144, .f32⟩ : BufTy).Contents (Elt F) → (⟨S262144, .f32⟩ : BufTy).Contents (Elt F) → (⟨S262144, .f32⟩ : BufTy).Contents (Elt F)),
    nullary main_cst_9 (constant S_ .f32 0x00000000#32),
    unary main_cst_9 main_v38 (broadcastInDim S8192x8192 ![] bcast_S_S8192x8192 : (⟨S_, .f32⟩ : BufTy).Contents (Elt F) → (⟨S8192x8192, .f32⟩ : BufTy).Contents (Elt F)),
    nullary main_c_10 (constantI S_ 32 0#32),
    unary main_c_10 main_v39 (broadcastInDim S262144 ![] bcast_S_S262144 : (⟨S_, .i32⟩ : BufTy).Contents (Elt F) → (⟨S262144, .i32⟩ : BufTy).Contents (Elt F)),
    binary main_v6 main_v39 main_v40 (cmpi .slt : (⟨S262144, .i32⟩ : BufTy).Contents (Elt F) → (⟨S262144, .i32⟩ : BufTy).Contents (Elt F) → (⟨S262144, .i1⟩ : BufTy).Contents (Elt F)),
    nullary main_c_11 (constantI S_ 32 8192#32),
    unary main_c_11 main_v41 (broadcastInDim S262144 ![] bcast_S_S262144 : (⟨S_, .i32⟩ : BufTy).Contents (Elt F) → (⟨S262144, .i32⟩ : BufTy).Contents (Elt F)),
    binary main_v6 main_v41 main_v42 (addi : (⟨S262144, .i32⟩ : BufTy).Contents (Elt F) → (⟨S262144, .i32⟩ : BufTy).Contents (Elt F) → (⟨S262144, .i32⟩ : BufTy).Contents (Elt F)),
    ternary main_v40 main_v42 main_v6 main_v43 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_12 (constantI S_ 32 0#32),
    unary main_c_12 main_v44 (broadcastInDim S262144 ![] bcast_S_S262144 : (⟨S_, .i32⟩ : BufTy).Contents (Elt F) → (⟨S262144, .i32⟩ : BufTy).Contents (Elt F)),
    binary main_v8 main_v44 main_v45 (cmpi .slt : (⟨S262144, .i32⟩ : BufTy).Contents (Elt F) → (⟨S262144, .i32⟩ : BufTy).Contents (Elt F) → (⟨S262144, .i1⟩ : BufTy).Contents (Elt F)),
    nullary main_c_13 (constantI S_ 32 8192#32),
    unary main_c_13 main_v46 (broadcastInDim S262144 ![] bcast_S_S262144 : (⟨S_, .i32⟩ : BufTy).Contents (Elt F) → (⟨S262144, .i32⟩ : BufTy).Contents (Elt F)),
    binary main_v8 main_v46 main_v47 (addi : (⟨S262144, .i32⟩ : BufTy).Contents (Elt F) → (⟨S262144, .i32⟩ : BufTy).Contents (Elt F) → (⟨S262144, .i32⟩ : BufTy).Contents (Elt F)),
    ternary main_v45 main_v47 main_v8 main_v48 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v43 main_v49 (broadcastInDim S262144x1 ![0] bcast_S262144_S262144x1_0 : (⟨S262144, .i32⟩ : BufTy).Contents (Elt F) → (⟨S262144x1, .i32⟩ : BufTy).Contents (Elt F)),
    unary main_v48 main_v50 (broadcastInDim S262144x1 ![0] bcast_S262144_S262144x1_0 : (⟨S262144, .i32⟩ : BufTy).Contents (Elt F) → (⟨S262144x1, .i32⟩ : BufTy).Contents (Elt F)),
    binary main_v49 main_v50 main_v51 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v38 main_v51 main_v37 main_v52 ((fun x i u => Host.scatter scatter_S8192x8192_S262144x2_S262144_n_01_01_1 (fun _ b => b) x i u) : (⟨S8192x8192, .f32⟩ : BufTy).Contents (Elt F) → (⟨S262144x2, .i32⟩ : BufTy).Contents (Elt F) → (⟨S262144, .f32⟩ : BufTy).Contents (Elt F) → (⟨S8192x8192, .f32⟩ : BufTy).Contents (Elt F)),
    binary main_v52 main_v4 main_v53 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x128, .f32⟩) main_call1_v0) (broadcastInDim S8192x128 ![] bcast_S_S8192x128),
    TRef.binary (TRef.of (T := ⟨S8192x128, .f32⟩) main_v53) (TRef.of (T := ⟨S8192x128, .f32⟩) main_call1_v0) (TRef.of (T := ⟨S8192x128, .f32⟩) main_v54) maximumf ]

/-- The linear layer, the rows of the edge list, the degrees, their sign and their power. -/
abbrev opsA : List (HloOp τ sig (Elt F)) :=
  [ unary main_arg2 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S8192x128 ![0, 1] bcast_S1x128_S8192x128_0_1 : (⟨S1x128, .f32⟩ : BufTy).Contents (Elt F) → (⟨S8192x128, .f32⟩ : BufTy).Contents (Elt F)),
    binary main_v1 main_v3 main_v4 (addf : (⟨S8192x128, .f32⟩ : BufTy).Contents (Elt F) → (⟨S8192x128, .f32⟩ : BufTy).Contents (Elt F) → (⟨S8192x128, .f32⟩ : BufTy).Contents (Elt F)),
    unary main_arg1 main_v5 ((extractStridedSlice S1x262144 ![0, 0] · slices_S2x262144_S1x262144_0_0) : (⟨S2x262144, .i32⟩ : BufTy).Contents (Elt F) → (⟨S1x262144, .i32⟩ : BufTy).Contents (Elt F)),
    reshape main_v5 main_v6 rfl shapeCasts_S1x262144_S262144,
    unary main_arg1 main_v7 ((extractStridedSlice S1x262144 ![1, 0] · slices_S2x262144_S1x262144_1_0) : (⟨S2x262144, .i32⟩ : BufTy).Contents (Elt F) → (⟨S1x262144, .i32⟩ : BufTy).Contents (Elt F)),
    reshape main_v7 main_v8 rfl shapeCasts_S1x262144_S262144,
    nullary main_cst (constant S_ .f32 0x00000000#32),
    unary main_cst main_v9 (broadcastInDim S8192 ![] bcast_S_S8192 : (⟨S_, .f32⟩ : BufTy).Contents (Elt F) → (⟨S8192, .f32⟩ : BufTy).Contents (Elt F)),
    nullary main_c (constantI S_ 32 0#32),
    unary main_c main_v10 (broadcastInDim S262144 ![] bcast_S_S262144 : (⟨S_, .i32⟩ : BufTy).Contents (Elt F) → (⟨S262144, .i32⟩ : BufTy).Contents (Elt F)),
    binary main_v6 main_v10 main_v11 (cmpi .slt : (⟨S262144, .i32⟩ : BufTy).Contents (Elt F) → (⟨S262144, .i32⟩ : BufTy).Contents (Elt F) → (⟨S262144, .i1⟩ : BufTy).Contents (Elt F)),
    nullary main_c_0 (constantI S_ 32 8192#32),
    unary main_c_0 main_v12 (broadcastInDim S262144 ![] bcast_S_S262144 : (⟨S_, .i32⟩ : BufTy).Contents (Elt F) → (⟨S262144, .i32⟩ : BufTy).Contents (Elt F)),
    binary main_v6 main_v12 main_v13 (addi : (⟨S262144, .i32⟩ : BufTy).Contents (Elt F) → (⟨S262144, .i32⟩ : BufTy).Contents (Elt F) → (⟨S262144, .i32⟩ : BufTy).Contents (Elt F)),
    ternary main_v11 main_v13 main_v6 main_v14 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v14 main_v15 (broadcastInDim S262144x1 ![0] bcast_S262144_S262144x1_0 : (⟨S262144, .i32⟩ : BufTy).Contents (Elt F) → (⟨S262144x1, .i32⟩ : BufTy).Contents (Elt F)),
    nullary main_cst_1 (constant S_ .f32 0x3F800000#32),
    unary main_cst_1 main_v16 (broadcastInDim S262144 ![] bcast_S_S262144 : (⟨S_, .f32⟩ : BufTy).Contents (Elt F) → (⟨S262144, .f32⟩ : BufTy).Contents (Elt F)),
    ternary main_v9 main_v15 main_v16 main_v17 ((fun x i u => Host.scatterAdd scatter_S8192_S262144x1_S262144_n_0_0_1 x i u) : (⟨S8192, .f32⟩ : BufTy).Contents (Elt F) → (⟨S262144x1, .i32⟩ : BufTy).Contents (Elt F) → (⟨S262144, .f32⟩ : BufTy).Contents (Elt F) → (⟨S8192, .f32⟩ : BufTy).Contents (Elt F)),
    nullary main_cst_2 (constant S_ .f32 0x00000000#32),
    unary main_cst_2 main_v18 (broadcastInDim S8192 ![] bcast_S_S8192 : (⟨S_, .f32⟩ : BufTy).Contents (Elt F) → (⟨S8192, .f32⟩ : BufTy).Contents (Elt F)),
    binary main_v17 main_v18 main_v19 (cmpf .ogt : (⟨S8192, .f32⟩ : BufTy).Contents (Elt F) → (⟨S8192, .f32⟩ : BufTy).Contents (Elt F) → (⟨S8192, .i1⟩ : BufTy).Contents (Elt F)),
    nullary main_cst_3 (constant S_ .f32 0xBF000000#32),
    unary main_cst_3 main_v20 (broadcastInDim S8192 ![] bcast_S_S8192 : (⟨S_, .f32⟩ : BufTy).Contents (Elt F) → (⟨S8192, .f32⟩ : BufTy).Contents (Elt F)),
    binary main_v17 main_v20 main_v21 (Host.powf : (⟨S8192, .f32⟩ : BufTy).Contents (Elt F) → (⟨S8192, .f32⟩ : BufTy).Contents (Elt F) → (⟨S8192, .f32⟩ : BufTy).Contents (Elt F)),
    nullary main_cst_4 (constant S_ .f32 0x00000000#32) ]
/-- The outlined selection. -/
abbrev opsB : List (HloOp τ sig (Elt F)) :=
  [ TRef.unary (TRef.of (T := ⟨S_, .f32⟩) main_cst_4) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v19) (TRef.of (T := ⟨S8192, .f32⟩) main_v21) (TRef.of (T := ⟨S8192, .f32⟩) main_call0_v1) (TRef.of (T := ⟨S8192, .f32⟩) main_v22) select ]
/-- The gathers, the product and the scatter. -/
abbrev opsC : List (HloOp τ sig (Elt F)) :=
  [ nullary main_c_5 (constantI S_ 32 0#32),
    unary main_c_5 main_v23 (broadcastInDim S262144 ![] bcast_S_S262144 : (⟨S_, .i32⟩ : BufTy).Contents (Elt F) → (⟨S262144, .i32⟩ : BufTy).Contents (Elt F)),
    binary main_v6 main_v23 main_v24 (cmpi .slt : (⟨S262144, .i32⟩ : BufTy).Contents (Elt F) → (⟨S262144, .i32⟩ : BufTy).Contents (Elt F) → (⟨S262144, .i1⟩ : BufTy).Contents (Elt F)),
    nullary main_c_6 (constantI S_ 32 8192#32),
    unary main_c_6 main_v25 (broadcastInDim S262144 ![] bcast_S_S262144 : (⟨S_, .i32⟩ : BufTy).Contents (Elt F) → (⟨S262144, .i32⟩ : BufTy).Contents (Elt F)),
    binary main_v6 main_v25 main_v26 (addi : (⟨S262144, .i32⟩ : BufTy).Contents (Elt F) → (⟨S262144, .i32⟩ : BufTy).Contents (Elt F) → (⟨S262144, .i32⟩ : BufTy).Contents (Elt F)),
    ternary main_v24 main_v26 main_v6 main_v27 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v27 main_v28 (broadcastInDim S262144x1 ![0] bcast_S262144_S262144x1_0 : (⟨S262144, .i32⟩ : BufTy).Contents (Elt F) → (⟨S262144x1, .i32⟩ : BufTy).Contents (Elt F)),
    binary main_v22 main_v28 main_v29 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    nullary main_c_7 (constantI S_ 32 0#32),
    unary main_c_7 main_v30 (broadcastInDim S262144 ![] bcast_S_S262144 : (⟨S_, .i32⟩ : BufTy).Contents (Elt F) → (⟨S262144, .i32⟩ : BufTy).Contents (Elt F)),
    binary main_v8 main_v30 main_v31 (cmpi .slt : (⟨S262144, .i32⟩ : BufTy).Contents (Elt F) → (⟨S262144, .i32⟩ : BufTy).Contents (Elt F) → (⟨S262144, .i1⟩ : BufTy).Contents (Elt F)),
    nullary main_c_8 (constantI S_ 32 8192#32),
    unary main_c_8 main_v32 (broadcastInDim S262144 ![] bcast_S_S262144 : (⟨S_, .i32⟩ : BufTy).Contents (Elt F) → (⟨S262144, .i32⟩ : BufTy).Contents (Elt F)),
    binary main_v8 main_v32 main_v33 (addi : (⟨S262144, .i32⟩ : BufTy).Contents (Elt F) → (⟨S262144, .i32⟩ : BufTy).Contents (Elt F) → (⟨S262144, .i32⟩ : BufTy).Contents (Elt F)),
    ternary main_v31 main_v33 main_v8 main_v34 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v34 main_v35 (broadcastInDim S262144x1 ![0] bcast_S262144_S262144x1_0 : (⟨S262144, .i32⟩ : BufTy).Contents (Elt F) → (⟨S262144x1, .i32⟩ : BufTy).Contents (Elt F)),
    binary main_v22 main_v35 main_v36 ((fun x i => Host.gather gather_S8192_S262144x1_S262144_n_0_n_n_0_1_1 x i) : (⟨S8192, .f32⟩ : BufTy).Contents (Elt F) → (⟨S262144x1, .i32⟩ : BufTy).Contents (Elt F) → (⟨S262144, .f32⟩ : BufTy).Contents (Elt F)),
    binary main_v29 main_v36 main_v37 (mulf : (⟨S262144, .f32⟩ : BufTy).Contents (Elt F) → (⟨S262144, .f32⟩ : BufTy).Contents (Elt F) → (⟨S262144, .f32⟩ : BufTy).Contents (Elt F)),
    nullary main_cst_9 (constant S_ .f32 0x00000000#32),
    unary main_cst_9 main_v38 (broadcastInDim S8192x8192 ![] bcast_S_S8192x8192 : (⟨S_, .f32⟩ : BufTy).Contents (Elt F) → (⟨S8192x8192, .f32⟩ : BufTy).Contents (Elt F)),
    nullary main_c_10 (constantI S_ 32 0#32),
    unary main_c_10 main_v39 (broadcastInDim S262144 ![] bcast_S_S262144 : (⟨S_, .i32⟩ : BufTy).Contents (Elt F) → (⟨S262144, .i32⟩ : BufTy).Contents (Elt F)),
    binary main_v6 main_v39 main_v40 (cmpi .slt : (⟨S262144, .i32⟩ : BufTy).Contents (Elt F) → (⟨S262144, .i32⟩ : BufTy).Contents (Elt F) → (⟨S262144, .i1⟩ : BufTy).Contents (Elt F)),
    nullary main_c_11 (constantI S_ 32 8192#32),
    unary main_c_11 main_v41 (broadcastInDim S262144 ![] bcast_S_S262144 : (⟨S_, .i32⟩ : BufTy).Contents (Elt F) → (⟨S262144, .i32⟩ : BufTy).Contents (Elt F)),
    binary main_v6 main_v41 main_v42 (addi : (⟨S262144, .i32⟩ : BufTy).Contents (Elt F) → (⟨S262144, .i32⟩ : BufTy).Contents (Elt F) → (⟨S262144, .i32⟩ : BufTy).Contents (Elt F)),
    ternary main_v40 main_v42 main_v6 main_v43 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_12 (constantI S_ 32 0#32),
    unary main_c_12 main_v44 (broadcastInDim S262144 ![] bcast_S_S262144 : (⟨S_, .i32⟩ : BufTy).Contents (Elt F) → (⟨S262144, .i32⟩ : BufTy).Contents (Elt F)),
    binary main_v8 main_v44 main_v45 (cmpi .slt : (⟨S262144, .i32⟩ : BufTy).Contents (Elt F) → (⟨S262144, .i32⟩ : BufTy).Contents (Elt F) → (⟨S262144, .i1⟩ : BufTy).Contents (Elt F)),
    nullary main_c_13 (constantI S_ 32 8192#32),
    unary main_c_13 main_v46 (broadcastInDim S262144 ![] bcast_S_S262144 : (⟨S_, .i32⟩ : BufTy).Contents (Elt F) → (⟨S262144, .i32⟩ : BufTy).Contents (Elt F)),
    binary main_v8 main_v46 main_v47 (addi : (⟨S262144, .i32⟩ : BufTy).Contents (Elt F) → (⟨S262144, .i32⟩ : BufTy).Contents (Elt F) → (⟨S262144, .i32⟩ : BufTy).Contents (Elt F)),
    ternary main_v45 main_v47 main_v8 main_v48 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v43 main_v49 (broadcastInDim S262144x1 ![0] bcast_S262144_S262144x1_0 : (⟨S262144, .i32⟩ : BufTy).Contents (Elt F) → (⟨S262144x1, .i32⟩ : BufTy).Contents (Elt F)),
    unary main_v48 main_v50 (broadcastInDim S262144x1 ![0] bcast_S262144_S262144x1_0 : (⟨S262144, .i32⟩ : BufTy).Contents (Elt F) → (⟨S262144x1, .i32⟩ : BufTy).Contents (Elt F)),
    binary main_v49 main_v50 main_v51 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    ternary main_v38 main_v51 main_v37 main_v52 ((fun x i u => Host.scatter scatter_S8192x8192_S262144x2_S262144_n_01_01_1 (fun _ b => b) x i u) : (⟨S8192x8192, .f32⟩ : BufTy).Contents (Elt F) → (⟨S262144x2, .i32⟩ : BufTy).Contents (Elt F) → (⟨S262144, .f32⟩ : BufTy).Contents (Elt F) → (⟨S8192x8192, .f32⟩ : BufTy).Contents (Elt F)) ]
/-- The big product and the outlined rectifier. -/
abbrev opsD : List (HloOp τ sig (Elt F)) :=
  [ binary main_v52 main_v4 main_v53 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x128, .f32⟩) main_call1_v0) (broadcastInDim S8192x128 ![] bcast_S_S8192x128),
    TRef.binary (TRef.of (T := ⟨S8192x128, .f32⟩) main_v53) (TRef.of (T := ⟨S8192x128, .f32⟩) main_call1_v0) (TRef.of (T := ⟨S8192x128, .f32⟩) main_v54) maximumf ]

set_option maxRecDepth 8192 in
set_option maxHeartbeats 4000000 in
theorem ops_split : (ops : List (HloOp τ sig (Elt F))) = opsA ++ (opsB ++ (opsC ++ opsD)) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., binary_bufs_sub .., nullary_bufs_sub .., unary_bufs_sub .., binary_bufs_sub ..⟩

/-! ## The four stretches, each against any earlier contents -/

variable (X : Valuation τ sig (Elt F))

set_option maxHeartbeats 8000000 in
theorem A_linear : StableHlo.after opsA X (Proc.devRef .tc main_v4)
    = linear (F := F) (X (Proc.devRef .tc main_arg0)) (X (Proc.devRef .tc main_arg2)) (X (Proc.devRef .tc main_arg3)) := by
  after_results_simp <;> rfl
set_option maxHeartbeats 8000000 in
theorem A_raw0 : StableHlo.after opsA X (Proc.devRef .tc main_v6) = raw0 (X (Proc.devRef .tc main_arg1)) := by
  after_results_simp <;> rfl
set_option maxHeartbeats 8000000 in
theorem A_raw1 : StableHlo.after opsA X (Proc.devRef .tc main_v8) = raw1 (X (Proc.devRef .tc main_arg1)) := by
  after_results_simp <;> rfl
set_option maxHeartbeats 8000000 in
theorem A_positive : StableHlo.after opsA X (Proc.devRef .tc main_v19) = positive (F := F) (raw0 (X (Proc.devRef .tc main_arg1))) := by
  after_results_simp <;> rfl
set_option maxHeartbeats 8000000 in
theorem A_power : StableHlo.after opsA X (Proc.devRef .tc main_v21) = power (F := F) (raw0 (X (Proc.devRef .tc main_arg1))) := by
  after_results_simp <;> rfl
set_option maxHeartbeats 8000000 in
theorem A_zero : StableHlo.after opsA X (Proc.devRef .tc main_cst_4) = constant (F := F) S_ .f32 0x00000000#32 := by
  after_results_simp <;> rfl

theorem B_select : StableHlo.after opsB X (Proc.devRef .tc main_v22)
    = select (X (Proc.devRef .tc main_v19)) (X (Proc.devRef .tc main_v21))
        (broadcastInDim S8192 ![] bcast_S_S8192 (id (X (Proc.devRef .tc main_cst_4)))) := by
  after_results <;> rfl
theorem B_keeps_linear : StableHlo.after opsB X (Proc.devRef .tc main_v4) = X (Proc.devRef .tc main_v4) := by
  after_results <;> rfl
theorem B_keeps_raw0 : StableHlo.after opsB X (Proc.devRef .tc main_v6) = X (Proc.devRef .tc main_v6) := by
  after_results <;> rfl
theorem B_keeps_raw1 : StableHlo.after opsB X (Proc.devRef .tc main_v8) = X (Proc.devRef .tc main_v8) := by
  after_results <;> rfl

set_option maxHeartbeats 8000000 in
theorem C_adjacency : StableHlo.after opsC X (Proc.devRef .tc main_v52)
    = adjacencyOf (F := F) (X (Proc.devRef .tc main_v22)) (X (Proc.devRef .tc main_v6)) (X (Proc.devRef .tc main_v8)) := by
  after_results_simp <;> rfl
set_option maxHeartbeats 8000000 in
theorem C_keeps_linear : StableHlo.after opsC X (Proc.devRef .tc main_v4) = X (Proc.devRef .tc main_v4) := by
  after_results_simp <;> rfl

theorem D_result : StableHlo.after opsD X (Proc.devRef .tc main_v54)
    = rectified (F := F) (X (Proc.devRef .tc main_v52)) (X (Proc.devRef .tc main_v4)) := by
  after_results <;> rfl

/-- The result buffer after the whole line, from any contents X: the stages of X at the four arguments. -/
theorem value : StableHlo.after ops X (Proc.devRef .tc main_v54)
    = result (F := F) (X (Proc.devRef .tc main_arg0)) (X (Proc.devRef .tc main_arg1)) (X (Proc.devRef .tc main_arg2))
        (X (Proc.devRef .tc main_arg3)) := by
  rw [ops_split, StableHlo.after_append, StableHlo.after_append, StableHlo.after_append,
    D_result, C_adjacency, C_keeps_linear, B_select, B_keeps_linear, B_keeps_raw0, B_keeps_raw1,
    A_linear, A_raw0, A_raw1, A_positive, A_power, A_zero]
  rfl

/-! ## The run -/

set_option maxRecDepth 8192 in
set_option maxHeartbeats 30000000 in
/-- Every weakly fair execution of the reference terminates with its result at `Stages.result` of the arguments and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
        = result (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v54).trans (value (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.HandRun

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibAggregate.lean ====
/-
  THE AGGREGATION STAGE OF A GRAPH-CONVOLUTION LAYER, AS A FUNCTION OF ITS INDEX, generic in the three extents.

  For an adjacency operand a of shape [A, K] and node features h of shape [K, B], the rectified aggregate is
      agg a h (r, c) = max (sum over k of a (r, k) · h (k, c)) 0.
  At the ideal values (every float operation exact, rounding between formats the identity) it is what

  * a kernel computes by a matmul into the zero accumulator followed by a maximum with the zero splat   (`agg_kernel_eq`);
  * the host computes by a dot_general followed by a maximum with the rank-0 zero broadcast to the
    result's shape                                                                                      (`agg_host_eq`).

  The aggregate at (r, c) reads row r of a and column c of h only (`agg_congr`): a block of rows of the result is the
  aggregate of the same block of rows of a.  No law of arithmetic is used: both spellings sum the same products in the
  same order.

  Nothing here depends on a program.
-/
import Idealize.ShloMosaic.Lib.ValueIdx
import Idealize.ShloMosaic.Lib.Pipeline.Value
import Idealize.ShloMosaic.PureOps.Ideal.Laws
import proofs.«171493_j32298154066114_1_alg».proof.Proof.LibPlainDot

noncomputable section

open scoped BigOperators

namespace Cert.Lib.Aggregate

open Idealize.ShloMosaic Idealize.ShloMosaic.ValueIdx Cert.Lib.PlainDot

variable {A A' K B : Nat}

/-- The rectified aggregate at the output index (r, c). -/
def agg (a : (⟨2, ![A, K]⟩ : Shape).Idx → EReal) (h : (⟨2, ![K, B]⟩ : Shape).Idx → EReal) :
    (⟨2, ![A, B]⟩ : Shape).Idx → EReal :=
  fun j => max (∑ k : Fin K, a (ix2 (j 0) k) * h (ix2 k (j 1))) 0

/-- The aggregate at an index depends on one row of the adjacency operand and one column of the features: two
    aggregates (over adjacency operands of different heights) agree at two indices where those agree. -/
theorem agg_congr (a : (⟨2, ![A, K]⟩ : Shape).Idx → EReal) (a' : (⟨2, ![A', K]⟩ : Shape).Idx → EReal)
    (h h' : (⟨2, ![K, B]⟩ : Shape).Idx → EReal) (j : (⟨2, ![A, B]⟩ : Shape).Idx) (i : (⟨2, ![A', B]⟩ : Shape).Idx)
    (ha : ∀ k, a (ix2 (j 0) k) = a' (ix2 (i 0) k)) (hh : ∀ k, h (ix2 k (j 1)) = h' (ix2 k (i 1))) :
    agg a h j = agg a' h' i := by
  unfold agg
  rw [Finset.sum_congr rfl fun k _ => congrArg₂ (· * ·) (ha k) (hh k)]

/-- The kernel's spelling of the aggregate, whatever the operands' float formats. -/
theorem agg_kernel_eq {φ₁ φ₂ : FTy} (a : FVec Ideal ⟨2, ![A, K]⟩ φ₁) (h : FVec Ideal ⟨2, ![K, B]⟩ φ₂) :
    maximumf (matmul (DotDims.plain A K B) none a h (constant ⟨2, ![A, B]⟩ .f32 0x00000000#32))
        (broadcast ⟨2, ![A, B]⟩ (Scalar.ofBits (F := Ideal) .f32 0x00000000#32))
      = agg a h := by
  funext j
  rw [maximumf_apply, matmul_zero_plain_apply, broadcast_apply]
  show max _ (Ideal.ofBits .f32 0x00000000#32) = _
  rw [Ideal.ofBits_zero_f32]
  rfl

/-- The host's spelling of the aggregate. -/
theorem agg_host_eq {φ₁ φ₂ : FTy} (a : FVec Ideal ⟨2, ![A, K]⟩ φ₁) (h : FVec Ideal ⟨2, ![K, B]⟩ φ₂)
    (h0 : (⟨0, ![]⟩ : Shape).BroadcastsInDim ⟨2, ![A, B]⟩ (![] : Fin 0 → Fin 2)) :
    maximumf (Host.dotGeneral (DotDims.plain A K B) none a h)
        (broadcastInDim ⟨2, ![A, B]⟩ ![] h0 (constant (F := Ideal) ⟨0, ![]⟩ .f32 0x00000000#32))
      = agg a h := by
  funext j
  rw [maximumf_apply, dotGeneral_plain_apply]
  rw [broadcastInDim_apply ![] h0 _ j ix0 (fun a => a.elim0), constant_apply, Ideal.ofBits_zero_f32]
  rfl

end Cert.Lib.Aggregate

end
-- ==== Proof.LibConvLayer.lean ====
/-
  A GRAPH-CONVOLUTION LAYER'S DENSE STAGE, AS A FUNCTION OF ITS INDEX, generic in the three extents.

  For two row operands a (the aggregated neighbours) and x (the nodes themselves) of shape [A, K], two matrices w and
  w' of shape [K, B] and a bias row b of shape [1, B], the stage
      conv a x w w' b (r, c) = max (((sum over k of a (r, k) · w (k, c)) + (sum over k of x (r, k) · w' (k, c))) + b (0, c)) 0
  is what, at the ideal values (every float operation exact, rounding between formats the identity),

  * a kernel computes by two matmuls of the operands (rounded to bf16) into zero accumulators, their sum, an addition
    of the bias row broadcast to every row, and a maximum with the zero splat             (`kernel_eq`);
  * the host computes by a dot_general, an addition of the bias row broadcast in dimensions [0, 1], an addition of
    the second dot_general, and a maximum with the rank-0 zero broadcast to the result's shape (`host_eq`):
    the two differ in the order of the three summands, and addition on the extended reals is commutative and
    associative, infinities included.

  The stage at an index reads only one row of a and of x, one column of w and of w' and one entry of b
  (`conv_congr`), so a block of rows of the result is the stage of the same block of rows of a and x.

  The last stage of a perceptron head, without a rectifier,
      affine x w b (r, c) = (sum over k of x (r, k) · w (k, c)) + b (0, c),
  has the same two spellings (`affine_kernel_eq`, `affine_host_eq`), for any width B, one included.

  Nothing here depends on a program.
-/
import Idealize.ShloMosaic.Lib.ValueIdx
import Idealize.ShloMosaic.Lib.Pipeline.Value
import Idealize.ShloMosaic.PureOps.Ideal.Laws
import proofs.«171493_j32298154066114_1_alg».proof.Proof.LibPlainDot

noncomputable section

open scoped BigOperators

namespace Cert.Lib.ConvLayer

open Idealize.ShloMosaic Idealize.ShloMosaic.ValueIdx Cert.Lib.PlainDot

variable {A A' K B : Nat}

/-- The stage at the output index (r, c). -/
def conv (a x : (⟨2, ![A, K]⟩ : Shape).Idx → EReal) (w w' : (⟨2, ![K, B]⟩ : Shape).Idx → EReal)
    (b : (⟨2, ![1, B]⟩ : Shape).Idx → EReal) : (⟨2, ![A, B]⟩ : Shape).Idx → EReal :=
  fun j => max (((∑ k : Fin K, a (ix2 (j 0) k) * w (ix2 k (j 1))) + (∑ k : Fin K, x (ix2 (j 0) k) * w' (ix2 k (j 1))))
    + b (ix2 0 (j 1))) 0

/-- The stage at an index depends on one row of each row operand, one column of each matrix and one entry of the
    bias: two stages (over row operands of different heights) agree at two indices where those agree. -/
theorem conv_congr (a x : (⟨2, ![A, K]⟩ : Shape).Idx → EReal) (a' x' : (⟨2, ![A', K]⟩ : Shape).Idx → EReal)
    (w w' v v' : (⟨2, ![K, B]⟩ : Shape).Idx → EReal) (b b' : (⟨2, ![1, B]⟩ : Shape).Idx → EReal)
    (j : (⟨2, ![A, B]⟩ : Shape).Idx) (i : (⟨2, ![A', B]⟩ : Shape).Idx)
    (ha : ∀ k, a (ix2 (j 0) k) = a' (ix2 (i 0) k)) (hx : ∀ k, x (ix2 (j 0) k) = x' (ix2 (i 0) k))
    (hw : ∀ k, w (ix2 k (j 1)) = v (ix2 k (i 1))) (hw' : ∀ k, w' (ix2 k (j 1)) = v' (ix2 k (i 1)))
    (hb : b (ix2 0 (j 1)) = b' (ix2 0 (i 1))) : conv a x w w' b j = conv a' x' v v' b' i := by
  unfold conv
  rw [hb, Finset.sum_congr rfl fun k _ => congrArg₂ (· * ·) (ha k) (hw k),
    Finset.sum_congr rfl fun k _ => congrArg₂ (· * ·) (hx k) (hw' k)]

/-- A bias row [1, B] broadcast to every row of [A, B], read at an index: the entry of its column (any B, one
    included: then the column is 0 on both sides). -/
theorem bias_row_apply (b : FVec Ideal ⟨2, ![1, B]⟩ .f32) (hbc : (⟨2, ![1, B]⟩ : Shape).Broadcasts ⟨2, ![A, B]⟩)
    (j : (⟨2, ![A, B]⟩ : Shape).Idx) : broadcastTo ⟨2, ![A, B]⟩ b hbc j = b (ix2 0 (j 1)) :=
  broadcastTo_apply b hbc j (ix2 0 (j 1)) (fun a => by
    match a with
    | ⟨0, _⟩ => show (0 : Nat) = if (1 : Nat) = 1 then 0 else _; rw [if_pos rfl]
    | ⟨1, _⟩ =>
      show (j 1).val = if B = 1 then 0 else (j 1).val
      split
      · rename_i h; have hlt : (j 1).val < B := (j 1).isLt; omega
      · rfl)

/-- The same for the host's broadcast in dimensions [0, 1]. -/
theorem bias_row_inDim_apply (b : FVec Ideal ⟨2, ![1, B]⟩ .f32)
    (hb : (⟨2, ![1, B]⟩ : Shape).BroadcastsInDim ⟨2, ![A, B]⟩ (![0, 1] : Fin 2 → Fin 2))
    (j : (⟨2, ![A, B]⟩ : Shape).Idx) : broadcastInDim ⟨2, ![A, B]⟩ ![0, 1] hb b j = b (ix2 0 (j 1)) :=
  broadcastInDim_apply ![0, 1] hb b j (ix2 0 (j 1)) (fun a => by
    match a with
    | ⟨0, _⟩ => show (0 : Nat) = if (1 : Nat) = 1 then 0 else _; rw [if_pos rfl]
    | ⟨1, _⟩ =>
      show (j 1).val = if B = 1 then 0 else (j 1).val
      split
      · rename_i h; have hlt : (j 1).val < B := (j 1).isLt; omega
      · rfl)

/-- The kernel's spelling of the stage. -/
theorem kernel_eq (a x : FVec Ideal ⟨2, ![A, K]⟩ .f32) (w w' : FVec Ideal ⟨2, ![K, B]⟩ .f32)
    (b : FVec Ideal ⟨2, ![1, B]⟩ .f32) (h1 h2 h3 h4 : FTy.bf16.bits < FTy.f32.bits)
    (hbc : (⟨2, ![1, B]⟩ : Shape).Broadcasts ⟨2, ![A, B]⟩) :
    maximumf (addf (addf
          (matmul (DotDims.plain A K B) none (truncf .bf16 a h1) (truncf .bf16 w h2)
            (constant ⟨2, ![A, B]⟩ .f32 0x00000000#32))
          (matmul (DotDims.plain A K B) none (truncf .bf16 x h3) (truncf .bf16 w' h4)
            (constant ⟨2, ![A, B]⟩ .f32 0x00000000#32)))
          (broadcastTo ⟨2, ![A, B]⟩ b hbc))
        (broadcast ⟨2, ![A, B]⟩ (Scalar.ofBits (F := Ideal) .f32 0x00000000#32))
      = conv a x w w' b := by
  funext j
  rw [maximumf_apply, addf_apply, addf_apply, matmul_zero_plain_apply, matmul_zero_plain_apply, broadcast_apply,
    bias_row_apply]
  show max _ (Ideal.ofBits .f32 0x00000000#32) = _
  rw [Ideal.ofBits_zero_f32]
  rfl

/-- The host's spelling of the stage: the bias is added before the second product. -/
theorem host_eq (a x : FVec Ideal ⟨2, ![A, K]⟩ .f32) (w w' : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (addf (Host.dotGeneral (DotDims.plain A K B) none a w) (broadcastInDim ⟨2, ![A, B]⟩ ![0, 1] hb b))
          (Host.dotGeneral (DotDims.plain A K B) none x w'))
        (broadcastInDim ⟨2, ![A, B]⟩ ![] h0 (constant (F := Ideal) ⟨0, ![]⟩ .f32 0x00000000#32))
      = conv a x w w' b := by
  funext j
  rw [maximumf_apply, addf_apply, addf_apply, dotGeneral_plain_apply, dotGeneral_plain_apply, bias_row_inDim_apply]
  rw [broadcastInDim_apply ![] h0 _ j ix0 (fun a => a.elim0), constant_apply, Ideal.ofBits_zero_f32]
  unfold conv
  exact congrArg (fun s : EReal => max s 0) (add_right_comm _ _ _)

/-- The last stage of the head, without a rectifier, at the output index (r, c). -/
def affine (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => (∑ k : Fin K, x (ix2 (j 0) k) * w (ix2 k (j 1))) + b (ix2 0 (j 1))

/-- The kernel's spelling of the last stage. -/
theorem affine_kernel_eq (x : FVec Ideal ⟨2, ![A, K]⟩ .f32) (w : FVec Ideal ⟨2, ![K, B]⟩ .f32)
    (b : FVec Ideal ⟨2, ![1, B]⟩ .f32) (h1 h2 : FTy.bf16.bits < FTy.f32.bits)
    (hbc : (⟨2, ![1, B]⟩ : Shape).Broadcasts ⟨2, ![A, B]⟩) :
    addf (matmul (DotDims.plain A K B) none (truncf .bf16 x h1) (truncf .bf16 w h2)
          (constant ⟨2, ![A, B]⟩ .f32 0x00000000#32)) (broadcastTo ⟨2, ![A, B]⟩ b hbc)
      = affine x w b := by
  funext j
  rw [addf_apply, matmul_zero_plain_apply, bias_row_apply]
  rfl

/-- The host's spelling of the last stage. -/
theorem affine_host_eq (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2)) :
    addf (Host.dotGeneral (DotDims.plain A K B) none x w) (broadcastInDim ⟨2, ![A, B]⟩ ![0, 1] hb b)
      = affine x w b := by
  funext j
  rw [addf_apply, dotGeneral_plain_apply, bias_row_inDim_apply]
  rfl

end Cert.Lib.ConvLayer

end
-- ==== Proof.KernelPayloads.lean ====
/-
  WHAT THE TWO KERNEL BODIES COMPUTE, at the ideal values.

  The first body loads the node features x, the weight matrix W and the bias as a row b, and stores
      x · Wᵀ + b      (the bias added to every row):
  the affine stage of x, the transposed W and b.  The roundings of x and W to bf16 before the product are the identity
  at the ideal values, and W is transposed inside the body before a plain product.

  The second body loads a block of rows of the adjacency matrix and the whole of the features h, and stores
      max (block · h, 0):
  the rectified aggregate of that block of rows.
-/
import proofs.«171493_j32298154066114_1_alg».proof.Proof.Gen.KernelIdeal.Skeleton
import proofs.«171493_j32298154066114_1_alg».proof.Proof.LibAggregate
import proofs.«171493_j32298154066114_1_alg».proof.Proof.LibConvLayer
import Idealize.ShloMosaic.Lib.Pipeline.Value

noncomputable section

namespace Cert.KernelIdeal.Payloads

open Cert.KernelIdeal Cert.KernelIdeal.Gen
open Idealize.ShloMosaic Idealize.ShloMosaic.ValueIdx Cert.Lib.PlainDot Cert.Lib.ConvLayer Cert.Lib.Aggregate

/-- The first body's stored value: the affine stage of the features, the transposed weights and the bias row. -/
theorem linear_payload (x : Vec Ideal S8192x128 .f32) (W : Vec Ideal S128x128 .f32) (b : Vec Ideal S1x128 .f32) :
    k0_pay1 (F := Ideal) x W b = affine x (transpose S128x128 [1, 0] W transposes_S128x128_p1_0_S128x128) b := by
  unfold k0_pay1
  funext j
  rw [addf_apply, shapeCast_self,
    eq_plain dot_S8192x128_S128x128_S8192x128_1_0_0_1_n_n rfl rfl rfl rfl rfl rfl,
    matmul_zero_plain_apply, bias_row_apply]
  rfl

/-- The second body's stored value: the rectified aggregate of the loaded rows of the adjacency and the features. -/
theorem aggregate_payload (a : Vec Ideal S512x8192 .bf16) (h : Vec Ideal S8192x128 .bf16) :
    k1_pay1 (F := Ideal) a h = agg a h := by
  unfold k1_pay1
  rw [shapeCast_self, shapeCast_self,
    eq_plain dot_S512x8192_S8192x128_S512x128_1_0_0_1_n_n rfl rfl rfl rfl rfl rfl]
  exact agg_kernel_eq a h

end Cert.KernelIdeal.Payloads

end
-- ==== Proof.KernelArrays.lean ====
/-
  FROM BLOCKS TO ARRAYS: what each kernel region leaves in its output array, as one function of the arrays it finds.

  The first region has a single grid point and every one of its windows is its whole array: the output array ends at the
  affine stage of the three input arrays.

  The second region has 16 grid points.  At point t the output block is rows 512·t … 512·t + 511 (all 128 columns), the
  adjacency block is the same rows (all 8192 columns), and the feature block is the whole feature array.  The body
  stores the rectified aggregate of its two blocks; entry (p, c) of that aggregate reads row p of the adjacency block —
  row 512·t + p of the adjacency array — and column c of the features, so it is entry (512·t + p, c) of the aggregate of
  the whole arrays.  The 16 blocks tile the output array (row r lies in block r / 512), so the array ends at the
  aggregate of the whole adjacency array and the whole feature array.
-/
import proofs.«171493_j32298154066114_1_alg».proof.Proof.Gen.KernelIdeal.Frame
import proofs.«171493_j32298154066114_1_alg».proof.Proof.KernelPayloads

set_option maxRecDepth 16384

noncomputable section

namespace Cert.KernelIdeal.Arrays

open Cert.KernelIdeal Cert.KernelIdeal.Gen Cert.KernelIdeal.Payloads
open Idealize.ShloMosaic Idealize.ShloMosaic.TcCoe Idealize.ShloMosaic.ValueIdx
open Idealize.SL Idealize.SL.Sem
open Idealize.ShloMosaic.Pipeline (Dat Cfg Window)
open Cert.Lib.ConvLayer Cert.Lib.Aggregate

variable (V : (c : Dev nD) → (b : Ref sig .tc) → Buf (Elt Ideal) ((c : Thread nD τ).loc b))

/-- Every load and store of the two bodies starts at the origin of its buffer. -/
theorem origin : (![0, 0] : Fin 2 → Nat) = fun _ => 0 := funext fun a => by fin_cases a <;> rfl

/-! ## The first region: one point, whole arrays -/

/-- At the one grid point every window's block index is (0, 0). -/
theorem index0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The features' block is the whole feature array. -/
theorem block0_x (c : Dev nD) (t : Fin cfg0.N) (y : S8192x128.Idx) : iblk0 V c 0 t y = V c main_arg0 y := by
  obtain ⟨e0, e1, -⟩ := index0 t
  show V c main_arg0 (((cfg0.win 0).blk t).view.emb y) = V c main_arg0 y
  refine congrArg (V c main_arg0) (funext fun a => Fin.ext ?_)
  match a with
  | ⟨0, _⟩ => show win0_0.index t (0 : Fin 2) * 8192 + 1 * (y 0).val = (y 0).val; omega
  | ⟨1, _⟩ => show win0_0.index t (1 : Fin 2) * 128 + 1 * (y 1).val = (y 1).val; omega

/-- The weights' block is the whole weight matrix. -/
theorem block0_w (c : Dev nD) (t : Fin cfg0.N) (y : S128x128.Idx) : iblk0 V c 1 t y = V c main_arg2 y := by
  obtain ⟨-, -, e0, e1, -⟩ := index0 t
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block is the whole row. -/
theorem block0_b (c : Dev nD) (t : Fin cfg0.N) (y : S1x128.Idx) : iblk0 V c 2 t y = V c main_v49 y := by
  obtain ⟨-, -, -, -, e0, e1, -⟩ := index0 t
  show V c main_v49 (((cfg0.win 2).blk t).view.emb y) = V c main_v49 y
  refine congrArg (V c main_v49) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The linear layer of the arrays the first region finds. -/
abbrev linearOf (c : Dev nD) : S8192x128.Idx → EReal :=
  affine (V c main_arg0) (transpose S128x128 [1, 0] (V c main_arg2) transposes_S128x128_p1_0_S128x128) (V c main_v49)

/-- What the one point writes back is the (whole) block of the linear layer. -/
theorem flushed0 (c : Dev nD) (t : Fin cfg0.N) :
    (dat0 V c).flushed 3 t = ((cfg0.win 3).blk t).view.read (Elt Ideal) (linearOf V c) := by
  show (cfg0.win 3).cut (grid0.coords t) ((dat0 V c).after 3 t) = _
  rw [after0_3]
  unfold out0_3
  rw [View.canon_unit_zero origin]
  simp only [View.ld_unit_zero (S := S8192x128) origin, View.ld_unit_zero (S := S128x128) origin,
    View.ld_unit_zero (S := S1x128) origin]
  rw [linear_payload]
  obtain ⟨-, -, -, -, -, -, e0, e1⟩ := index0 t
  have hx : (iblk0 V c 0 t : S8192x128.Idx → EReal) = V c main_arg0 := funext (block0_x V c t)
  have hw : (iblk0 V c 1 t : S128x128.Idx → EReal) = V c main_arg2 := funext (block0_w V c t)
  have hb : (iblk0 V c 2 t : S1x128.Idx → EReal) = V c main_v49 := funext (block0_b V c t)
  rw [hx, hw, hb]
  funext y
  show linearOf V c y = linearOf V c (((cfg0.win 3).blk t).view.emb y)
  refine congrArg (linearOf V c) (funext fun a => Fin.ext ?_)
  match a with
  | ⟨0, _⟩ => show (y 0).val = win0_3.index t (0 : Fin 2) * 8192 + 1 * (y 0).val; omega
  | ⟨1, _⟩ => show (y 1).val = win0_3.index t (1 : Fin 2) * 128 + 1 * (y 1).val; omega

/-- An index of the output array is in a point's block iff each coordinate is in the block's range. -/
theorem mem_block0 (t : Fin cfg0.N) (i : S8192x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v50).slice (win0_3.rect t)).set ↔ _
  rw [View.set_slice_whole, Rect.mem_set_unit]
  exact Iff.rfl

/-- The first region's output array ends at the linear layer of the arrays it finds. -/
theorem final0 (c : Dev nD) : (dat0 V c).arrAt 3 cfg0.N = linearOf V c :=
  (dat0 V c).arrAt_eq_of_cover 3 (linearOf V c) (fun t _ => flushed0 V c t) (fun i => by
    refine ⟨t0_0, flush0_3 t0_0, ?_⟩
    rw [mem_block0]
    obtain ⟨-, -, -, -, -, -, e0, e1⟩ := index0 t0_0
    have h0 : (i 0).val < 8192 := (i 0).isLt
    have h1 : (i 1).val < 128 := (i 1).isLt
    intro a
    match a with
    | ⟨0, _⟩ => show win0_3.index t0_0 (0 : Fin 2) * 8192 ≤ (i 0).val ∧ (i 0).val < win0_3.index t0_0 (0 : Fin 2) * 8192 + 8192; omega
    | ⟨1, _⟩ => show win0_3.index t0_0 (1 : Fin 2) * 128 ≤ (i 1).val ∧ (i 1).val < win0_3.index t0_0 (1 : Fin 2) * 128 + 128; omega)

/-! ## The second region: 16 blocks of 512 rows -/

/-- The printed index maps over the grid: the adjacency block and the output block move together down the rows, at
    column block 0; the features stay at block (0, 0); the output's row block is the point's number. -/
theorem index1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 15 :=
  (by decide +kernel : ∀ t : Fin grid1.N, _)

/-- Every block of 512 rows is some point's. -/
theorem index1_onto : ∀ q : Fin 16, ∃ t : Fin cfg1.N, win1_2.index t (0 : Fin 2) = q.val :=
  (by decide +kernel : ∀ q : Fin 16, ∃ t : Fin grid1.N, win1_2.index t (0 : Fin 2) = q.val)

/-- The aggregate of the arrays the second region finds. -/
abbrev aggregateOf (c : Dev nD) : S8192x128.Idx → EReal := agg (V c main_v48) (V c main_v51)

/-- What point t writes back is block t of the aggregate of the whole arrays. -/
theorem flushed1 (c : Dev nD) (t : Fin cfg1.N) :
    (dat1 V c).flushed 2 t = ((cfg1.win 2).blk t).view.read (Elt Ideal) (aggregateOf V c) := by
  show (cfg1.win 2).cut (grid1.coords t) ((dat1 V c).after 2 t) = _
  rw [after1_2]
  unfold out1_2
  rw [View.canon_unit_zero origin]
  simp only [View.ld_unit_zero (S := S512x8192) origin, View.ld_unit_zero (S := S8192x128) origin]
  rw [aggregate_payload]
  obtain ⟨e0, e1, e2, e3, e4, e5⟩ := index1 t
  funext y
  show agg (iblk1 V c 0 t) (iblk1 V c 1 t) y = agg (V c main_v48) (V c main_v51) (((cfg1.win 2).blk t).view.emb y)
  refine agg_congr _ _ _ _ y _ (fun k => ?_) (fun k => ?_)
  · show V c main_v48 (((cfg1.win 0).blk t).view.emb (ix2 (y 0) k)) = V c main_v48 (ix2 ((((cfg1.win 2).blk t).view.emb y) 0) k)
    refine congrArg (V c main_v48) (funext fun a => Fin.ext ?_)
    match a with
    | ⟨0, _⟩ => show win1_0.index t (0 : Fin 2) * 512 + 1 * (y 0).val = win1_2.index t (0 : Fin 2) * 512 + 1 * (y 0).val; omega
    | ⟨1, _⟩ => show win1_0.index t (1 : Fin 2) * 8192 + 1 * k.val = k.val; omega
  · show V c main_v51 (((cfg1.win 1).blk t).view.emb (ix2 k (y 1))) = V c main_v51 (ix2 k ((((cfg1.win 2).blk t).view.emb y) 1))
    refine congrArg (V c main_v51) (funext fun a => Fin.ext ?_)
    match a with
    | ⟨0, _⟩ => show win1_1.index t (0 : Fin 2) * 8192 + 1 * k.val = k.val; omega
    | ⟨1, _⟩ => show win1_1.index t (1 : Fin 2) * 128 + 1 * (y 1).val = win1_2.index t (1 : Fin 2) * 128 + 1 * (y 1).val; omega

/-- An index of the output array is in point t's block iff each coordinate is in the block's range. -/
theorem mem_block1 (t : Fin cfg1.N) (i : S8192x128.Idx) :
    i ∈ ((cfg1.win 2).blk t).view.set ↔ ∀ a : Fin 2, win1_2.index t a * S512x128.size a ≤ (i a).val
      ∧ (i a).val < win1_2.index t a * S512x128.size a + S512x128.size a := by
  show i ∈ ((View.whole main_v52).slice (win1_2.rect t)).set ↔ _
  rw [View.set_slice_whole, Rect.mem_set_unit]
  exact Iff.rfl

/-- The second region's output array ends at the aggregate of the arrays it finds. -/
theorem final1 (c : Dev nD) : (dat1 V c).arrAt 2 cfg1.N = aggregateOf V c :=
  (dat1 V c).arrAt_eq_of_cover 2 (aggregateOf V c) (fun t _ => flushed1 V c t) (fun i => by
    have h0 : (i 0).val < 8192 := (i 0).isLt
    have h1 : (i 1).val < 128 := (i 1).isLt
    obtain ⟨t, ht⟩ := index1_onto ⟨(i 0).val / 512, by omega⟩
    have q0 : win1_2.index t (0 : Fin 2) = (i 0).val / 512 := ht
    obtain ⟨-, -, -, -, e4, -⟩ := index1 t
    refine ⟨t, flush1_2 t, ?_⟩
    rw [mem_block1]
    intro a
    match a with
    | ⟨0, _⟩ => show win1_2.index t (0 : Fin 2) * 512 ≤ (i 0).val ∧ (i 0).val < win1_2.index t (0 : Fin 2) * 512 + 512; omega
    | ⟨1, _⟩ => show win1_2.index t (1 : Fin 2) * 128 ≤ (i 1).val ∧ (i 1).val < win1_2.index t (1 : Fin 2) * 128 + 128; omega)

end Cert.KernelIdeal.Arrays

end
-- ==== Proof.KernelStages.lean ====
/-
  THE HOST STAGES BEFORE THE KERNEL'S REGIONS, as functions of the edge list.

  Before its first region the program builds, from the edge list e (row 0 the source of each edge, row 1 its target):

    raw a                 row a of e as a vector;
    wrap r                an id below zero moved up by the number of nodes;
    degreeOf r0           the number of edges leaving each node: ones added into zeros at the wrapped sources;
    dinvOf r0             degree to the power -1/2 where the degree is positive, zero elsewhere;
    normOf d r0 r1        per edge, d at its wrapped source times d at its wrapped target;
    pairsOf r0 r1         per edge, the pair (wrapped source, wrapped target);
    adjacencyOf d r0 r1   the dense matrix of zeros, in bf16, with the norms, rounded to bf16, written at the pairs.
-/
import proofs.«171493_j32298154066114_1_alg».proof.Proof.Gen.KernelIdeal

noncomputable section

namespace Cert.KernelIdeal.Stages

open Cert.KernelIdeal Cert.KernelIdeal.Gen Idealize.ShloMosaic

variable {F : FTy → Type} [FloatOps F]

/-- Row 0 of the edge list: the sources. -/
def raw0 (e : IVec S2x262144 32) : IVec S262144 32 :=
  shapeCast _ (extractStridedSlice S1x262144 ![0, 0] e slices_S2x262144_S1x262144_0_0) shapeCasts_S1x262144_S262144

/-- Row 1 of the edge list: the targets. -/
def raw1 (e : IVec S2x262144 32) : IVec S262144 32 :=
  shapeCast _ (extractStridedSlice S1x262144 ![1, 0] e slices_S2x262144_S1x262144_1_0) shapeCasts_S1x262144_S262144

/-- An id below zero moved up by the number of nodes. -/
def wrap (r : IVec S262144 32) : IVec S262144 32 :=
  select (cmpi .slt r (broadcastInDim S262144 ![] bcast_S_S262144 (constantI S_ 32 0#32)))
    (addi r (broadcastInDim S262144 ![] bcast_S_S262144 (constantI S_ 32 8192#32))) r

/-- The number of edges leaving each node. -/
def degreeOf (r0 : IVec S262144 32) : FVec F S8192 .f32 :=
  Host.scatterAdd scatter_S8192_S262144x1_S262144_n_0_0_1 (broadcastInDim S8192 ![] bcast_S_S8192 (constant S_ .f32 0x00000000#32))
    (broadcastInDim S262144x1 ![0] bcast_S262144_S262144x1_0 (wrap r0)) (broadcastInDim S262144 ![] bcast_S_S262144 (constant S_ .f32 0x3F800000#32))

/-- Where the degree is positive. -/
def positive (r0 : IVec S262144 32) : IVec S8192 1 :=
  cmpf .ogt (degreeOf (F := F) r0) (broadcastInDim S8192 ![] bcast_S_S8192 (constant S_ .f32 0x00000000#32))

/-- degree to the power -1/2. -/
def power (r0 : IVec S262144 32) : FVec F S8192 .f32 :=
  Host.powf (degreeOf r0) (broadcastInDim S8192 ![] bcast_S_S8192 (constant S_ .f32 0xBF000000#32))

/-- degree to the power -1/2 where the degree is positive, zero elsewhere. -/
def dinvOf (r0 : IVec S262144 32) : FVec F S8192 .f32 :=
  select (positive (F := F) r0) (power r0) (broadcastInDim S8192 ![] bcast_S_S8192 (id (constant S_ .f32 0x00000000#32)))

/-- Per edge: d at its wrapped source times d at its wrapped target. -/
def normOf (d : FVec F S8192 .f32) (r0 r1 : IVec S262144 32) : FVec F S262144 .f32 :=
  mulf (Host.gather gather_S8192_S262144x1_S262144_n_0_n_n_0_1_1 d (broadcastInDim S262144x1 ![0] bcast_S262144_S262144x1_0 (wrap r0)))
    (Host.gather gather_S8192_S262144x1_S262144_n_0_n_n_0_1_1 d (broadcastInDim S262144x1 ![0] bcast_S262144_S262144x1_0 (wrap r1)))

/-- Per edge: the pair (wrapped source, wrapped target). -/
def pairsOf (r0 r1 : IVec S262144 32) : IVec S262144x2 32 :=
  concatenate S262144x2 1 [⟨S262144x1, broadcastInDim S262144x1 ![0] bcast_S262144_S262144x1_0 (wrap r0)⟩,
    ⟨S262144x1, broadcastInDim S262144x1 ![0] bcast_S262144_S262144x1_0 (wrap r1)⟩] concatenates_S262144x1_S262144x1_S262144x2_d1

/-- The dense adjacency the kernel is fed: bf16 zeros, with each edge's norm, rounded to bf16, written at its pair. -/
def adjacencyOf (d : FVec F S8192 .f32) (r0 r1 : IVec S262144 32) : FVec F S8192x8192 .bf16 :=
  Host.scatter scatter_S8192x8192_S262144x2_S262144_n_01_01_1 (fun _ b => b)
    (broadcastInDim S8192x8192 ![] bcast_S_S8192x8192 (constant S_ .bf16 0x0000#16)) (pairsOf r0 r1)
    (truncf .bf16 (normOf d r0 r1) bitsLt_bf16_f32)

end Cert.KernelIdeal.Stages

end
-- ==== Proof.KernelHost.lean ====
/-
  THE HOST OPERATIONS AROUND THE KERNEL'S REGIONS, one stretch at a time.

  The program's host operations come in four stretches: a first one that takes the two rows of the edge list apart,
  counts degrees and raises them to the power -1/2; the three operations of the outlined selection (zero where the
  degree is not positive); a long one that wraps the ids again, gathers, multiplies, and scatters the products into the
  dense adjacency, and also recasts the bias as a row; and, between the two regions, the rounding of the first
  region's output to bf16.  Each stretch is read here against ANY contents X of the buffers before it: a buffer the
  stretch writes ends at the stretch's operations applied to X at the buffers they read, and a buffer it does not write
  keeps X's contents.
-/
import proofs.«171493_j32298154066114_1_alg».proof.Proof.Gen.KernelIdeal.Launch
import proofs.«171493_j32298154066114_1_alg».proof.Proof.KernelStages
import Idealize.ShloMosaic.Lib.StableHlo.Run

set_option maxRecDepth 16384

noncomputable section

namespace Cert.KernelIdeal.Host

open Cert.KernelIdeal Cert.KernelIdeal.Gen Cert.KernelIdeal.Stages
open Idealize.ShloMosaic Idealize.ShloMosaic.TcCoe Idealize.ShloMosaic.StableHlo Idealize.SL.Sem

variable {F : FTy → Type} [FloatOps F]
variable (X : Valuation τ sig (Elt F))

/-! ## The first stretch -/

set_option maxHeartbeats 4000000 in
theorem first_raw0 : StableHlo.after hostOps0 X (Proc.devRef .tc main_v1) = raw0 (X (Proc.devRef .tc main_arg1)) := by
  after_results <;> rfl
set_option maxHeartbeats 4000000 in
theorem first_raw1 : StableHlo.after hostOps0 X (Proc.devRef .tc main_v3) = raw1 (X (Proc.devRef .tc main_arg1)) := by
  after_results <;> rfl
set_option maxHeartbeats 4000000 in
theorem first_positive : StableHlo.after hostOps0 X (Proc.devRef .tc main_v14) = positive (F := F) (raw0 (X (Proc.devRef .tc main_arg1))) := by
  after_results <;> rfl
set_option maxHeartbeats 4000000 in
theorem first_power : StableHlo.after hostOps0 X (Proc.devRef .tc main_v16) = power (F := F) (raw0 (X (Proc.devRef .tc main_arg1))) := by
  after_results <;> rfl
set_option maxHeartbeats 4000000 in
theorem first_zero : StableHlo.after hostOps0 X (Proc.devRef .tc main_cst_4) = constant (F := F) S_ .f32 0x00000000#32 := by
  after_results <;> rfl
set_option maxHeartbeats 4000000 in
theorem first_keeps_x : StableHlo.after hostOps0 X (Proc.devRef .tc main_arg0) = X (Proc.devRef .tc main_arg0) := by
  after_results <;> rfl
set_option maxHeartbeats 4000000 in
theorem first_keeps_w : StableHlo.after hostOps0 X (Proc.devRef .tc main_arg2) = X (Proc.devRef .tc main_arg2) := by
  after_results <;> rfl
set_option maxHeartbeats 4000000 in
theorem first_keeps_b : StableHlo.after hostOps0 X (Proc.devRef .tc main_arg3) = X (Proc.devRef .tc main_arg3) := by
  after_results <;> rfl

/-! ## The outlined selection -/

theorem select_dinv : StableHlo.after hostOps0_1 X (Proc.devRef .tc main_v17)
    = select (X (Proc.devRef .tc main_v14)) (X (Proc.devRef .tc main_v16))
        (broadcastInDim S8192 ![] bcast_S_S8192 (id (X (Proc.devRef .tc main_cst_4)))) := by
  after_results <;> rfl
theorem select_keeps_raw0 : StableHlo.after hostOps0_1 X (Proc.devRef .tc main_v1) = X (Proc.devRef .tc main_v1) := by
  after_results <;> rfl
theorem select_keeps_raw1 : StableHlo.after hostOps0_1 X (Proc.devRef .tc main_v3) = X (Proc.devRef .tc main_v3) := by
  after_results <;> rfl
theorem select_keeps_x : StableHlo.after hostOps0_1 X (Proc.devRef .tc main_arg0) = X (Proc.devRef .tc main_arg0) := by
  after_results <;> rfl
theorem select_keeps_w : StableHlo.after hostOps0_1 X (Proc.devRef .tc main_arg2) = X (Proc.devRef .tc main_arg2) := by
  after_results <;> rfl
theorem select_keeps_b : StableHlo.after hostOps0_1 X (Proc.devRef .tc main_arg3) = X (Proc.devRef .tc main_arg3) := by
  after_results <;> rfl

/-! ## The long stretch before the first region -/

set_option maxHeartbeats 8000000 in
theorem long_adjacency : StableHlo.after hostOps0_2 X (Proc.devRef .tc main_v48)
    = adjacencyOf (F := F) (X (Proc.devRef .tc main_v17)) (X (Proc.devRef .tc main_v1)) (X (Proc.devRef .tc main_v3)) := by
  after_results_simp <;> rfl
set_option maxHeartbeats 8000000 in
theorem long_bias : StableHlo.after hostOps0_2 X (Proc.devRef .tc main_v49)
    = shapeCast S1x128 (X (Proc.devRef .tc main_arg3)) shapeCasts_S128_S1x128 := by
  after_results_simp <;> rfl
set_option maxHeartbeats 8000000 in
theorem long_keeps_x : StableHlo.after hostOps0_2 X (Proc.devRef .tc main_arg0) = X (Proc.devRef .tc main_arg0) := by
  after_results_simp <;> rfl
set_option maxHeartbeats 8000000 in
theorem long_keeps_w : StableHlo.after hostOps0_2 X (Proc.devRef .tc main_arg2) = X (Proc.devRef .tc main_arg2) := by
  after_results_simp <;> rfl

/-! ## Between the regions -/

theorem between_round : StableHlo.after hostOps1 X (Proc.devRef .tc main_v51)
    = truncf .bf16 (X (Proc.devRef .tc main_v50)) bitsLt_bf16_f32 := by
  after_results <;> rfl
theorem between_keeps_adjacency : StableHlo.after hostOps1 X (Proc.devRef .tc main_v48) = X (Proc.devRef .tc main_v48) := by
  after_results <;> rfl

end Cert.KernelIdeal.Host

end
-- ==== Proof.KernelValue.lean ====
/-
  THE KERNEL'S RESULT AS A FUNCTION OF ITS ARGUMENTS, at the ideal values.

  Followed from the launch memory through the host stretches and the two regions, the result array ends at
      agg A H
  where A is the adjacency the host operations build from the edge list — untouched by the first region and by the
  rounding between the regions — and H is the first region's output, the affine stage  x · Wᵀ + b  of the arguments
  (the bias recast as a row), rounded to bf16 between the regions, which at the ideal values changes nothing.
-/
import proofs.«171493_j32298154066114_1_alg».proof.Proof.Gen.KernelIdeal.Frame
import proofs.«171493_j32298154066114_1_alg».proof.Proof.KernelArrays
import proofs.«171493_j32298154066114_1_alg».proof.Proof.KernelHost

set_option maxRecDepth 16384

noncomputable section

namespace Cert.KernelIdeal.Result

open Cert.KernelIdeal Cert.KernelIdeal.Gen Cert.KernelIdeal.Stages Cert.KernelIdeal.Host Cert.KernelIdeal.Arrays
open Idealize.ShloMosaic Idealize.ShloMosaic.TcCoe Idealize.ShloMosaic.ValueIdx
open Idealize.SL Idealize.SL.Sem
open Cert.Lib.ConvLayer Cert.Lib.Aggregate

variable (m : (ℓ : Loc nD τ sig) → Buf (Elt Ideal) ℓ) (ρ : Dev nD → PrngReg)

/-! ## What the first region finds -/

/-- The features, as launched. -/
theorem entry_x (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  rw [long_keeps_x, select_keeps_x, first_keeps_x]

/-- The weights, as launched. -/
theorem entry_w (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  rw [long_keeps_w, select_keeps_w, first_keeps_w]

/-- The bias, recast as a row. -/
theorem entry_b (c : Dev nD) : V3 m ρ c main_v49 = shapeCast S1x128 (m ((c : Thread nD τ).loc main_arg3)) shapeCasts_S128_S1x128 := by
  show StableHlo.after hostOps0_2 (StableHlo.after hostOps0_1 (StableHlo.after hostOps0 (W0 m ρ c))) (Proc.devRef .tc main_v49) = _
  rw [long_bias, select_keeps_b, first_keeps_b]

/-- The adjacency built from the launched edge list. -/
abbrev adjacencyAt (c : Dev nD) : FVec Ideal S8192x8192 .bf16 :=
  adjacencyOf (F := Ideal) (dinvOf (raw0 (m ((c : Thread nD τ).loc main_arg1)))) (raw0 (m ((c : Thread nD τ).loc main_arg1)))
    (raw1 (m ((c : Thread nD τ).loc main_arg1)))

theorem entry_adjacency (c : Dev nD) : V3 m ρ c main_v48 = adjacencyAt m c := by
  show StableHlo.after hostOps0_2 (StableHlo.after hostOps0_1 (StableHlo.after hostOps0 (W0 m ρ c))) (Proc.devRef .tc main_v48) = _
  rw [long_adjacency, select_dinv, select_keeps_raw0, select_keeps_raw1, first_positive, first_power, first_zero,
    first_raw0, first_raw1]
  rfl

/-! ## The first region's output -/

/-- The linear layer of the launched arguments: x · Wᵀ with the bias added to every row. -/
abbrev linearAt (c : Dev nD) : S8192x128.Idx → EReal :=
  affine (m ((c : Thread nD τ).loc main_arg0))
    (transpose S128x128 [1, 0] (m ((c : Thread nD τ).loc main_arg2)) transposes_S128x128_p1_0_S128x128)
    (shapeCast S1x128 (m ((c : Thread nD τ).loc main_arg3)) shapeCasts_S128_S1x128)

theorem linear_out (c : Dev nD) : W4 m ρ c (Proc.devRef .tc main_v50) = linearAt m c := by
  rw [show W4 m ρ c (Proc.devRef .tc main_v50) = (dat0 (V3 m ρ) c).arrAt 3 cfg0.N from W4_arr m ρ c 3, final0]
  show affine (V3 m ρ c main_arg0) (transpose S128x128 [1, 0] (V3 m ρ c main_arg2) transposes_S128x128_p1_0_S128x128)
    (V3 m ρ c main_v49) = _
  rw [entry_x m ρ c, entry_w m ρ c, entry_b m ρ c]

/-! ## The result -/

/-- The result array ends at the rectified aggregate of the adjacency and the linear layer of the launched
    arguments. -/
theorem result_value (c : Dev nD) : W6 m ρ c (Proc.devRef .tc main_v52) = agg (adjacencyAt m c) (linearAt m c) := by
  rw [show W6 m ρ c (Proc.devRef .tc main_v52) = (dat1 (V5 m ρ) c).arrAt 2 cfg1.N from W6_arr m ρ c 2, final1]
  have ha : (V5 m ρ c main_v48 : S8192x8192.Idx → EReal) = adjacencyAt m c := by
    show StableHlo.after hostOps1 (W4 m ρ c) (Proc.devRef .tc main_v48) = _
    rw [between_keeps_adjacency, W4_of_ne m ρ c main_v48 (by decide)]
    exact entry_adjacency m ρ c
  have hh : (V5 m ρ c main_v51 : S8192x128.Idx → EReal) = linearAt m c := by
    show StableHlo.after hostOps1 (W4 m ρ c) (Proc.devRef .tc main_v51) = _
    rw [between_round, linear_out m ρ c]
    rfl
  exact congrArg₂ agg ha hh

end Cert.KernelIdeal.Result

end
-- ==== Proof.RefValue.lean ====
/-
  THE REFERENCE'S RESULT, INDEX BY INDEX, at the ideal values.

  The reference's result is the rectified aggregate  agg A H  of its adjacency A and its linear layer H, and the linear
  layer is the affine stage  x · Wᵀ + b  with the bias broadcast to a row: the host's dot_general of a plain product is
  the textbook sum, its maximum with a broadcast zero is the maximum with 0, and its broadcast of the bias row adds
  b (c) to every entry of column c.
-/
import proofs.«171493_j32298154066114_1_alg».proof.Proof.RefStages
import proofs.«171493_j32298154066114_1_alg».proof.Proof.LibAggregate
import proofs.«171493_j32298154066114_1_alg».proof.Proof.LibConvLayer

noncomputable section

namespace Cert.ReferenceIdeal.Result

open Cert.ReferenceIdeal Cert.ReferenceIdeal.Gen Cert.ReferenceIdeal.Stages
open Idealize.ShloMosaic Idealize.ShloMosaic.ValueIdx Cert.Lib.PlainDot Cert.Lib.ConvLayer Cert.Lib.Aggregate

/-- The linear layer is the affine stage of the features, the transposed weights and the bias as a row. -/
theorem linear_eq (x : FVec Ideal S8192x128 .f32) (W : FVec Ideal S128x128 .f32) (b : FVec Ideal S128 .f32) :
    (linear (F := Ideal) x W b : S8192x128.Idx → EReal)
      = affine x (transpose S128x128 [1, 0] W transposes_S128x128_S128x128_1_0) (broadcastInDim S1x128 ![1] bcast_S128_S1x128_1 b) := by
  unfold linear
  rw [eq_plain dot_S8192x128_S128x128_S8192x128_1_0_0_1_n_n rfl rfl rfl rfl rfl rfl]
  exact affine_host_eq x _ _ bcast_S1x128_S8192x128_0_1

/-- The rectified product is the rectified aggregate. -/
theorem rectified_eq (a : FVec Ideal S8192x8192 .f32) (h : FVec Ideal S8192x128 .f32) :
    (rectified (F := Ideal) a h : S8192x128.Idx → EReal) = agg a h := by
  unfold rectified
  rw [eq_plain dot_S8192x8192_S8192x128_S8192x128_1_0_0_1_n_n rfl rfl rfl rfl rfl rfl]
  exact agg_host_eq a h bcast_S_S8192x128

/-- The reference's result: the rectified aggregate of its adjacency and its linear layer. -/
theorem result_eq (x : FVec Ideal S8192x128 .f32) (e : IVec S2x262144 32) (W : FVec Ideal S128x128 .f32) (b : FVec Ideal S128 .f32) :
    (result (F := Ideal) x e W b : S8192x128.Idx → EReal)
      = agg (adjacencyOf (F := Ideal) (dinvOf (raw0 e)) (raw0 e) (raw1 e))
          (affine x (transpose S128x128 [1, 0] W transposes_S128x128_S128x128_1_0) (broadcastInDim S1x128 ![1] bcast_S128_S1x128_1 b)) := by
  unfold result
  rw [rectified_eq, linear_eq]

end Cert.ReferenceIdeal.Result

end
-- ==== Proof.StagesAgree.lean ====
/-
  THE TWO PROGRAMS' HOST STAGES ARE THE SAME FUNCTIONS, at the ideal values.

  The kernel's program and the reference build the normalised adjacency by the same operations with the same
  literals: the rows of the edge list, the wrap of ids below zero, the degree count, the sign test, the power -1/2, the
  selection, the two gathers, their product and the pairs are, stage by stage, one function.  The dense adjacency
  differs in its spelling only: the kernel's program starts from zeros of the bf16 format and rounds each update to
  bf16 before writing it, the reference starts from zeros of the f32 format and writes the updates as they are.  At the
  ideal values a float is an extended real whatever its format, both zero patterns denote the number 0, and rounding to
  a narrower format is the identity: so the two adjacency matrices are the same matrix of extended reals.

  The bias enters the kernel as the vector recast to a row [1, 128] and the reference as the vector broadcast to a row
  [1, 128]; either row at (0, c) is the vector at c.
-/
import proofs.«171493_j32298154066114_1_alg».proof.Proof.KernelStages
import proofs.«171493_j32298154066114_1_alg».proof.Proof.RefStages
import Idealize.ShloMosaic.Lib.IdealHost
import Idealize.ShloMosaic.Lib.ValueIdx
import Idealize.ShloMosaic.Lib.Pipeline.Value
import Idealize.ShloMosaic.PureOps.Ideal.Laws

noncomputable section

namespace Cert.StagesAgree

open Idealize.ShloMosaic Idealize.ShloMosaic.ValueIdx

/-! ## The integer stages and the degrees -/

theorem raw0_eq (e : IVec Cert.KernelIdeal.S2x262144 32) :
    Cert.KernelIdeal.Stages.raw0 e = Cert.ReferenceIdeal.Stages.raw0 e := rfl

theorem raw1_eq (e : IVec Cert.KernelIdeal.S2x262144 32) :
    Cert.KernelIdeal.Stages.raw1 e = Cert.ReferenceIdeal.Stages.raw1 e := rfl

theorem wrap_eq (r : IVec Cert.KernelIdeal.S262144 32) :
    Cert.KernelIdeal.Stages.wrap r = Cert.ReferenceIdeal.Stages.wrap r := rfl

theorem pairs_eq (r0 r1 : IVec Cert.KernelIdeal.S262144 32) :
    Cert.KernelIdeal.Stages.pairsOf r0 r1 = Cert.ReferenceIdeal.Stages.pairsOf r0 r1 := rfl

theorem degree_eq (r0 : IVec Cert.KernelIdeal.S262144 32) :
    Cert.KernelIdeal.Stages.degreeOf (F := Ideal) r0 = Cert.ReferenceIdeal.Stages.degreeOf (F := Ideal) r0 := rfl

theorem dinv_eq (r0 : IVec Cert.KernelIdeal.S262144 32) :
    Cert.KernelIdeal.Stages.dinvOf (F := Ideal) r0 = Cert.ReferenceIdeal.Stages.dinvOf (F := Ideal) r0 := by
  unfold Cert.KernelIdeal.Stages.dinvOf Cert.ReferenceIdeal.Stages.dinvOf
    Cert.KernelIdeal.Stages.positive Cert.ReferenceIdeal.Stages.positive
    Cert.KernelIdeal.Stages.power Cert.ReferenceIdeal.Stages.power
  rw [degree_eq]

theorem norm_eq (d : FVec Ideal Cert.KernelIdeal.S8192 .f32) (r0 r1 : IVec Cert.KernelIdeal.S262144 32) :
    Cert.KernelIdeal.Stages.normOf (F := Ideal) d r0 r1 = Cert.ReferenceIdeal.Stages.normOf (F := Ideal) d r0 r1 := rfl

/-! ## The adjacency -/

/-- The bf16 zero pattern and the f32 zero pattern denote the same extended real, 0. -/
theorem zero_eq : (constant (F := Ideal) Cert.KernelIdeal.S_ .bf16 0x0000#16 : Cert.KernelIdeal.S_.Idx → EReal)
    = constant (F := Ideal) Cert.KernelIdeal.S_ .f32 0x00000000#32 :=
  funext fun i => by rw [constant_apply, constant_apply, Ideal.ofBits_zero_bf16, Ideal.ofBits_zero_f32]

/-- The adjacency the kernel is fed is the reference's adjacency, entry by entry, as extended reals. -/
theorem adjacency_eq (d : FVec Ideal Cert.KernelIdeal.S8192 .f32) (r0 r1 : IVec Cert.KernelIdeal.S262144 32) :
    (Cert.KernelIdeal.Stages.adjacencyOf (F := Ideal) d r0 r1 : Cert.KernelIdeal.S8192x8192.Idx → EReal)
      = Cert.ReferenceIdeal.Stages.adjacencyOf (F := Ideal) d r0 r1 := by
  unfold Cert.KernelIdeal.Stages.adjacencyOf Cert.ReferenceIdeal.Stages.adjacencyOf
  rw [zero_eq, pairs_eq, norm_eq]
  rfl

/-! ## The bias as a row -/

/-- The bias recast to a row, read at (0, c). -/
theorem bias_recast (b : Cert.KernelIdeal.S128.Idx → EReal) (h : Cert.KernelIdeal.S128.ShapeCasts Cert.KernelIdeal.S1x128)
    (c : Fin 128) : shapeCast Cert.KernelIdeal.S1x128 b h (ix2 0 c) = b (ix1 c) :=
  shapeCast_apply b h (ix2 0 c) (ix1 c) (by
    rw [Shape.rowMajor_val_one, Shape.rowMajor_val_two]
    show c.val = 0 * 128 + c.val
    omega)

/-- The bias broadcast to a row, read at (0, c). -/
theorem bias_broadcast (b : Cert.ReferenceIdeal.S128.Idx → EReal)
    (h : Cert.ReferenceIdeal.S128.BroadcastsInDim Cert.ReferenceIdeal.S1x128 (![1] : Fin 1 → Fin 2)) (c : Fin 128) :
    broadcastInDim Cert.ReferenceIdeal.S1x128 ![1] h b (ix2 0 c) = b (ix1 c) :=
  broadcastInDim_apply ![1] h b (ix2 0 c) (ix1 c) (fun a => by
    match a with
    | ⟨0, _⟩ => show c.val = if (128 : Nat) = 1 then 0 else c.val; rw [if_neg (by decide)])

end Cert.StagesAgree

end
-- ==== Proof.Agreement.lean ====
/-
  THE TWO PROGRAMS COMPUTE ONE FUNCTION, at the ideal values.

  Both results are the rectified aggregate  max (A · H, 0)  of an adjacency A and a linear layer H of the same arguments.
  The adjacency matrices are the same matrix of extended reals (the kernel's is built in bf16, which changes nothing at
  the ideal values).  The linear layers are both  x · Wᵀ + b : the transposed weights are the same array, and the bias
  row — recast in the kernel's program, broadcast in the reference — is b (c) at (0, c) in both.  The sums run over the
  same products in the same order; no law of arithmetic on the extended reals is needed, and none of finiteness.
-/
import proofs.«171493_j32298154066114_1_alg».proof.Proof.KernelValue
import proofs.«171493_j32298154066114_1_alg».proof.Proof.RefValue
import proofs.«171493_j32298154066114_1_alg».proof.Proof.StagesAgree

noncomputable section

namespace Cert.Agreement

open Idealize.ShloMosaic Idealize.ShloMosaic.TcCoe Idealize.ShloMosaic.ValueIdx Idealize.SL.Sem
open Cert.Lib.ConvLayer Cert.Lib.Aggregate Cert.StagesAgree

/-- The linear layers agree: same features, same transposed weights, and the two bias rows read the same entry
    (whatever the proofs of the four shape side conditions). -/
theorem linear_agree (x : FVec Ideal Cert.KernelIdeal.S8192x128 .f32) (W : FVec Ideal Cert.KernelIdeal.S128x128 .f32)
    (b : FVec Ideal Cert.KernelIdeal.S128 .f32)
    (hT : Cert.ReferenceIdeal.S128x128.Transposes [1, 0] Cert.ReferenceIdeal.S128x128)
    (hB : Cert.ReferenceIdeal.S128.BroadcastsInDim Cert.ReferenceIdeal.S1x128 (![1] : Fin 1 → Fin 2))
    (hT' : Cert.KernelIdeal.S128x128.Transposes [1, 0] Cert.KernelIdeal.S128x128)
    (hC : Cert.KernelIdeal.S128.ShapeCasts Cert.KernelIdeal.S1x128) :
    affine x (transpose Cert.ReferenceIdeal.S128x128 [1, 0] W hT) (broadcastInDim Cert.ReferenceIdeal.S1x128 ![1] hB b)
      = affine x (transpose Cert.KernelIdeal.S128x128 [1, 0] W hT') (shapeCast Cert.KernelIdeal.S1x128 b hC) := by
  funext j
  unfold affine
  exact congrArg₂ (· + ·) rfl ((bias_broadcast b hB (j 1)).trans (bias_recast b hC (j 1)).symm)

/-- The adjacency matrices agree. -/
theorem adjacency_agree (e : IVec Cert.KernelIdeal.S2x262144 32) :
    (Cert.ReferenceIdeal.Stages.adjacencyOf (F := Ideal) (Cert.ReferenceIdeal.Stages.dinvOf (Cert.ReferenceIdeal.Stages.raw0 e))
        (Cert.ReferenceIdeal.Stages.raw0 e) (Cert.ReferenceIdeal.Stages.raw1 e) : Cert.KernelIdeal.S8192x8192.Idx → EReal)
      = Cert.KernelIdeal.Stages.adjacencyOf (F := Ideal) (Cert.KernelIdeal.Stages.dinvOf (Cert.KernelIdeal.Stages.raw0 e))
        (Cert.KernelIdeal.Stages.raw0 e) (Cert.KernelIdeal.Stages.raw1 e) := by
  rw [← raw0_eq, ← raw1_eq, ← dinv_eq]
  exact (adjacency_eq _ _ _).symm

/-- The reference's result of the launch contents is the kernel's closed form of the same contents. -/
theorem result_agree (m : (ℓ : Loc Cert.KernelIdeal.nD Cert.KernelIdeal.τ Cert.KernelIdeal.sig) → Buf (Elt Ideal) ℓ)
    (c : Dev Cert.KernelIdeal.nD) :
    (Cert.ReferenceIdeal.Stages.result (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
          : Cert.KernelIdeal.S8192x128.Idx → EReal)
      = agg (Cert.KernelIdeal.Result.adjacencyAt m c) (Cert.KernelIdeal.Result.linearAt m c) := by
  rw [Cert.ReferenceIdeal.Result.result_eq]
  exact congrArg₂ agg (adjacency_agree _) (linear_agree _ _ _ _ _ _ _)

end Cert.Agreement

end
-- ==== Proof.lean ====
/-
  A GRAPH-CONVOLUTION LAYER: the kernel's program against its reference, on the extended reals.

  From node features x [8192, 128], an edge list e [2, 262144] (row 0 the source of each edge, row 1 its target), a
  weight matrix W [128, 128] and a bias b [128], both programs compute

      out = max (A · (x · Wᵀ + b), 0),

  where A is the dense [8192, 8192] matrix that holds, at (source, target) of every edge, the product of
  degree^(-1/2) at the two ends (zero where a node has no outgoing edge) and zero elsewhere.

  The reference is a straight line of host operations.  The kernel's program builds A by the same host operations, then
  runs two kernel regions: the first computes  x · Wᵀ + b  in one grid point; the second computes  max (A · h, 0)  sixteen
  blocks of 512 rows at a time, each block the same rows of A against the whole of h.  It rounds A's entries, x, W and h
  to bf16 on the way, which at the ideal values (a float an exact extended real, a change of float format the identity)
  changes nothing.

  So the two results are one function of the arguments, index by index: entry (r, c) of either is
  max (sum over k of A (r, k) · h (k, c), 0) with h (k, c) = (sum over j of x (k, j) · W (c, j)) + b (c), the sums over
  the same products in the same order.  No law of arithmetic on the extended reals is used beyond reading each
  operation at an index, and the precondition (finite inputs) is never opened.

  The kernel's idealization rewrote no operation, so there is nothing to preserve beyond the program's own text.
-/
import proofs.«171493_j32298154066114_1_alg».proof.Defs
import proofs.«171493_j32298154066114_1_alg».proof.Proof.Gen.Kernel
import proofs.«171493_j32298154066114_1_alg».proof.Proof.Gen.Kernel.Skeleton
import proofs.«171493_j32298154066114_1_alg».proof.Proof.Gen.Kernel.Launch
import proofs.«171493_j32298154066114_1_alg».proof.Proof.Gen.Kernel.Points
import proofs.«171493_j32298154066114_1_alg».proof.Proof.Gen.Kernel.Frame
import proofs.«171493_j32298154066114_1_alg».proof.Proof.Gen.KernelIdeal
import proofs.«171493_j32298154066114_1_alg».proof.Proof.Gen.KernelIdeal.Skeleton
import proofs.«171493_j32298154066114_1_alg».proof.Proof.Gen.KernelIdeal.Launch
import proofs.«171493_j32298154066114_1_alg».proof.Proof.Gen.KernelIdeal.Points
import proofs.«171493_j32298154066114_1_alg».proof.Proof.Gen.KernelIdeal.Frame
import proofs.«171493_j32298154066114_1_alg».proof.Proof.Gen.ReferenceIdeal
import proofs.«171493_j32298154066114_1_alg».proof.Proof.Gen.Pre_finite_inputs
import proofs.«171493_j32298154066114_1_alg».proof.Proof.KernelRun
import proofs.«171493_j32298154066114_1_alg».proof.Proof.RefRun
import proofs.«171493_j32298154066114_1_alg».proof.Proof.Agreement
import Idealize.ShloMosaic.Adequacy
import Idealize.ShloMosaic.Init

noncomputable section

namespace Cert.Proof

open Idealize.ShloMosaic Idealize.SL.Sem

/-- The kernel's program runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- From memories agreeing on the arguments both programs end with the rectified aggregate of the adjacency and the
    linear layer of those arguments. -/
theorem algebraic : Cert.algebraic_KernelIdeal_ReferenceIdeal := by
  intro m ρ m' ρ' _ hagree
  refine ⟨fun c => Cert.Lib.Aggregate.agg (Cert.KernelIdeal.Result.adjacencyAt m c) (Cert.KernelIdeal.Result.linearAt m c), ?_, ?_⟩
  · exact (θ_run Cert.KernelIdeal.defs _ _).mono
      (fun r h c => ⟨(h c).1.trans (Cert.KernelIdeal.Result.result_value m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.HandRun.run (F := Ideal) m' ρ')
    rw [(hagree c).1, (hagree c).2.1, (hagree c).2.2.1, (hagree c).2.2.2]
    exact Cert.Agreement.result_agree m c

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
